-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x1024 : Shape := ⟨3, ![4, 256, 1024]⟩
abbrev S4x64x640 : Shape := ⟨3, ![4, 64, 640]⟩
abbrev S640x1024 : Shape := ⟨2, ![640, 1024]⟩
abbrev S640 : Shape := ⟨1, ![640]⟩
abbrev S640x640 : Shape := ⟨2, ![640, 640]⟩
abbrev S1024x640 : Shape := ⟨2, ![1024, 640]⟩
abbrev S1024 : Shape := ⟨1, ![1024]⟩
abbrev S5x640 : Shape := ⟨2, ![5, 640]⟩
abbrev S5 : Shape := ⟨1, ![5]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S4x64x640 : S_.BroadcastsInDim S4x64x640 (![] : Fin 0 → Fin S4x64x640.rank)
  reducesTo_S4x64x640_S_d0_1_2 : S4x64x640.ReducesTo [0, 1, 2] S_
  bcast_S_S640x1024 : S_.BroadcastsInDim S640x1024 (![] : Fin 0 → Fin S640x1024.rank)
  reducesTo_S640x1024_S_d0_1 : S640x1024.ReducesTo [0, 1] S_
  bcast_S_S640 : S_.BroadcastsInDim S640 (![] : Fin 0 → Fin S640.rank)
  reducesTo_S640_S_d0 : S640.ReducesTo [0] S_
  bcast_S_S640x640 : S_.BroadcastsInDim S640x640 (![] : Fin 0 → Fin S640x640.rank)
  reducesTo_S640x640_S_d0_1 : S640x640.ReducesTo [0, 1] S_
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_
  bcast_S_S5x640 : S_.BroadcastsInDim S5x640 (![] : Fin 0 → Fin S5x640.rank)
  reducesTo_S5x640_S_d0_1 : S5x640.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S1024 .f32) (main_arg8 : FVec F S5x640 .f32) (main_arg9 : FVec F S5 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S5x640 .f32 := Host.absf main_arg8
  let main_cst_14 : FVec F S_ .f32 := constant S_ .f32 0x7F800000#32
  let main_v40 : FVec F S5x640 .f32 := broadcastInDim S5x640 ![] bcast_S_S5x640 main_cst_14
  let main_v41 : IVec S5x640 1 := cmpf .olt main_v39 main_v40
  let main_c_15 : IVec S_ 1 := constantI S_ 1 1#1
  let main_v42 : IVec S_ 1 := (fun x v => Host.reduce IntOp.andi x v reducesTo_S5x640_S_d0_1 h_S_) main_v41 main_c_15
  let main_v43 : IVec S_ 1 := andi main_v38 main_v42
  let main_v44 : FVec F S5 .f32 := Host.absf main_arg9
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg4 : FVec F S640x640 .f32) (main_arg5 : FVec F S640 .f32) (main_arg6 : FVec F S1024x640 .f32) (main_arg7 : FVec F S1024 .f32) (main_arg8 : FVec F S5x640 .f32) (main_arg9 : FVec F S5 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x640 .f32 := Host.absf main_arg4
  let main_cst_6 : FVec F S_ .f32 := constant S_ .f32 0x7F800000#32
  let main_v20 : FVec F S640x640 .f32 := broadcastInDim S640x640 ![] bcast_S_S640x640 main_cst_6
  let main_v21 : IVec S640x640 1 := cmpf .olt main_v19 main_v20
  let main_c_7 : IVec S_ 1 := constantI S_ 1 1#1
  let main_v22 : IVec S_ 1 := (fun x v => Host.reduce IntOp.andi x v reducesTo_S640x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S1024x640 .f32 := Host.absf main_arg6
  let main_cst_10 : FVec F S_ .f32 := constant S_ .f32 0x7F800000#32
  let main_v30 : FVec F S1024x640 .f32 := broadcastInDim S1024x640 ![] bcast_S_S1024x640 main_cst_10
  let main_v31 : IVec S1024x640 1 := cmpf .olt main_v29 main_v30
  let main_c_11 : IVec S_ 1 := constantI S_ 1 1#1
  let main_v32 : IVec S_ 1 := (fun x v => Host.reduce IntOp.andi x v reducesTo_S1024x640_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x256x1024 .f32) (main_arg1 : FVec F S4x64x640 .f32) (main_arg2 : FVec F S640x1024 .f32) (main_arg3 : FVec F S640 .f32) (main_arg4 : FVec F S640x640 .f32) (main_arg5 : FVec F S640 .f32) (main_arg6 : FVec F S1024x640 .f32) (main_arg7 : FVec F S1024 .f32) (main_arg8 : FVec F S5x640 .f32) (main_arg9 : FVec F S5 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S4x64x640 .f32 := Host.absf main_arg1
  let main_cst_0 : FVec F S_ .f32 := constant S_ .f32 0x7F800000#32
  let main_v5 : FVec F S4x64x640 .f32 := broadcastInDim S4x64x640 ![] bcast_S_S4x64x640 main_cst_0
  let main_v6 : IVec S4x64x640 1 := cmpf .olt main_v4 main_v5
  let main_c_1 : IVec S_ 1 := constantI S_ 1 1#1
  let main_v7 : IVec S_ 1 := (fun x v => Host.reduce IntOp.andi x v reducesTo_S4x64x640_S_d0_1_2 h_S_) main_v6 main_c_1
  let main_v8 : IVec S_ 1 := andi main_v3 main_v7
  let main_v9 : FVec F S640x1024 .f32 := Host.absf main_arg2
  let main_cst_2 : FVec F S_ .f32 := constant S_ .f32 0x7F800000#32
  let main_v10 : FVec F S640x1024 .f32 := broadcastInDim S640x1024 ![] bcast_S_S640x1024 main_cst_2
  let main_v11 : IVec S640x1024 1 := cmpf .olt main_v9 main_v10
  let main_c_3 : IVec S_ 1 := constantI S_ 1 1#1
  let main_v12 : IVec S_ 1 := (fun x v => Host.reduce IntOp.andi x v reducesTo_S640x1024_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_arg8 main_arg9 main_v13 main_v16
-- ==== Kernel.lean ====
abbrev S4x256x1024 : Shape := ⟨3, ![4, 256, 1024]⟩
abbrev S4x64x640 : Shape := ⟨3, ![4, 64, 640]⟩
abbrev S640x1024 : Shape := ⟨2, ![640, 1024]⟩
abbrev S640 : Shape := ⟨1, ![640]⟩
abbrev S640x640 : Shape := ⟨2, ![640, 640]⟩
abbrev S1024x640 : Shape := ⟨2, ![1024, 640]⟩
abbrev S1024 : Shape := ⟨1, ![1024]⟩
abbrev S5x640 : Shape := ⟨2, ![5, 640]⟩
abbrev S5 : Shape := ⟨1, ![5]⟩
abbrev S640x5 : Shape := ⟨2, ![640, 5]⟩
abbrev S1x640 : Shape := ⟨2, ![1, 640]⟩
abbrev S1x1024 : Shape := ⟨2, ![1, 1024]⟩
abbrev S1x5 : Shape := ⟨2, ![1, 5]⟩
abbrev S4x256x64x1024 : Shape := ⟨4, ![4, 256, 64, 1024]⟩
abbrev S4x256x64x5 : Shape := ⟨4, ![4, 256, 64, 5]⟩
abbrev S1x16x1024 : Shape := ⟨3, ![1, 16, 1024]⟩
abbrev S1x64x640 : Shape := ⟨3, ![1, 64, 640]⟩
abbrev S1x16x64x1024 : Shape := ⟨4, ![1, 16, 64, 1024]⟩
abbrev S1x16x64x5 : Shape := ⟨4, ![1, 16, 64, 5]⟩
abbrev S64x640 : Shape := ⟨2, ![64, 640]⟩
abbrev S16x1024 : Shape := ⟨2, ![16, 1024]⟩
abbrev S16x640 : Shape := ⟨2, ![16, 640]⟩
abbrev S16x1x640 : Shape := ⟨3, ![16, 1, 640]⟩
abbrev S16x64x640 : Shape := ⟨3, ![16, 64, 640]⟩
abbrev S1024x1024 : Shape := ⟨2, ![1024, 1024]⟩
abbrev S16x64x1024 : Shape := ⟨3, ![16, 64, 1024]⟩
abbrev S1024x5 : Shape := ⟨2, ![1024, 5]⟩
abbrev S16x64x5 : Shape := ⟨3, ![16, 64, 5]⟩

abbrev nBuf : Space → Nat
  | .hbm => 24
  | .vmem => 17
  | .smem => 0
  | _ => 0

abbrev bufTy : (tb : Table) → Fin (tcTables nBuf tb) → BufTy
  | .hbm, ⟨0, _⟩ => ⟨S4x256x1024, .f32⟩
  | .hbm, ⟨1, _⟩ => ⟨S4x64x640, .f32⟩
  | .hbm, ⟨2, _⟩ => ⟨S640x1024, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S5x640, .f32⟩
  | .hbm, ⟨9, _⟩ => ⟨S5, .f32⟩
  | .hbm, ⟨10, _⟩ => ⟨S1024x640, .f32⟩
  | .hbm, ⟨11, _⟩ => ⟨S1024x640, .bf16⟩
  | .hbm, ⟨12, _⟩ => ⟨S640x640, .f32⟩
  | .hbm, ⟨13, _⟩ => ⟨S640x640, .bf16⟩
  | .hbm, ⟨14, _⟩ => ⟨S640x1024, .f32⟩
  | .hbm, ⟨15, _⟩ => ⟨S640x1024, .bf16⟩
  | .hbm, ⟨16, _⟩ => ⟨S640x5, .f32⟩
  | .hbm, ⟨17, _⟩ => ⟨S640x5, .bf16⟩
  | .hbm, ⟨18, _⟩ => ⟨S1x640, .f32⟩
  | .hbm, ⟨19, _⟩ => ⟨S1x640, .f32⟩
  | .hbm, ⟨20, _⟩ => ⟨S1x1024, .f32⟩
  | .hbm, ⟨21, _⟩ => ⟨S1x5, .f32⟩
  | .hbm, ⟨22, _⟩ => ⟨S4x256x64x1024, .f32⟩
  | .hbm, ⟨23, _⟩ => ⟨S4x256x64x5, .f32⟩
  | .local _ .vmem, ⟨0, _⟩ => ⟨S1x16x1024, .f32⟩
  | .local _ .vmem, ⟨1, _⟩ => ⟨S1x16x1024, .f32⟩
  | .local _ .vmem, ⟨2, _⟩ => ⟨S1x64x640, .f32⟩
  | .local _ .vmem, ⟨3, _⟩ => ⟨S1x64x640, .f32⟩
  | .local _ .vmem, ⟨4, _⟩ => ⟨S1024x640, .bf16⟩
  | .local _ .vmem, ⟨5, _⟩ => ⟨S1x640, .f32⟩
  | .local _ .vmem, ⟨6, _⟩ => ⟨S640x640, .bf16⟩
  | .local _ .vmem, ⟨7, _⟩ => ⟨S1x640, .f32⟩
  | .local _ .vmem, ⟨8, _⟩ => ⟨S640x1024, .bf16⟩
  | .local _ .vmem, ⟨9, _⟩ => ⟨S1x1024, .f32⟩
  | .local _ .vmem, ⟨10, _⟩ => ⟨S640x5, .bf16⟩
  | .local _ .vmem, ⟨11, _⟩ => ⟨S1x5, .f32⟩
  | .local _ .vmem, ⟨12, _⟩ => ⟨S1x16x64x1024, .f32⟩
  | .local _ .vmem, ⟨13, _⟩ => ⟨S1x16x64x1024, .f32⟩
  | .local _ .vmem, ⟨14, _⟩ => ⟨S1x16x64x5, .f32⟩
  | .local _ .vmem, ⟨15, _⟩ => ⟨S1x16x64x5, .f32⟩
  | .local _ .vmem, ⟨16, _⟩ => ⟨S64x640, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S640x5 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x64x5 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S640x1024_S1024x640_1_0 : S640x1024.Transposes [1, 0] S1024x640
  bitsLt_bf16_f32 : FTy.bits .bf16 < FTy.bits .f32
  transposes_S640x640_S640x640_1_0 : S640x640.Transposes [1, 0] S640x640
  transposes_S1024x640_S640x1024_1_0 : S1024x640.Transposes [1, 0] S640x1024
  transposes_S5x640_S640x5_1_0 : S5x640.Transposes [1, 0] S640x5
  shapeCasts_S640_S1x640 : S640.ShapeCasts S1x640
  shapeCasts_S1024_S1x1024 : S1024.ShapeCasts S1x1024
  shapeCasts_S5_S1x5 : S5.ShapeCasts S1x5
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S64x640 : S1x640.Broadcasts S64x640
  inb_S64x640_S64x640_0_0 : ∀ a, (![0, 0] : Fin 2 → Nat) a + S64x640.size a ≤ S64x640.size a
  h_S64x640 : 0 < S64x640.numel
  shapeCasts_S64x640_S64x640 : S64x640.ShapeCasts S64x640
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  broadcasts_S1x640_S16x640 : S1x640.Broadcasts S16x640
  shapeCasts_S16x640_S16x1x640 : S16x640.ShapeCasts S16x1x640
  shapeCasts_S64x640_S1x64x640 : S64x640.ShapeCasts S1x64x640
  broadcasts_S16x1x640_S16x64x640 : S16x1x640.Broadcasts S16x64x640
  broadcasts_S1x64x640_S16x64x640 : S1x64x640.Broadcasts S16x64x640
  shapeCasts_S16x64x640_S1024x640 : S16x64x640.ShapeCasts S1024x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  inb_S640x5_S640x5_0_0 : ∀ a, (![0, 0] : Fin 2 → Nat) a + S640x5.size a ≤ S640x5.size a
  h_S640x5 : 0 < S640x5.numel
  shapeCasts_S640x5_S640x5 : S640x5.ShapeCasts S640x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S1024x5 : S1x5.Broadcasts S1024x5
  shapeCasts_S1024x5_S16x64x5 : S1024x5.ShapeCasts S16x64x5
  inb_S1x16x64x5_S1x16x64x5_0_0_0_0 : ∀ a, (![0, 0, 0, 0] : Fin 4 → Nat) a + S1x16x64x5.size a ≤ S1x16x64x5.size a
  h_S1x16x64x5 : 0 < S1x16x64x5.numel
  shapeCasts_S1x16x64x5_S16x64x5 : S1x16x64x5.ShapeCasts S16x64x5
  shapeCasts_S16x64x5_S1x16x64x5 : S16x64x5.ShapeCasts S1x16x64x5
  dot_S64x640_S640x640_S64x640_1_0_0_1_n_n_wf : DotDims.WF S64x640 S640x640 S64x640 [1] [0] [0] [1] [] []
  dot_S16x1024_S1024x640_S16x640_1_0_0_1_n_n_wf : DotDims.WF S16x1024 S1024x640 S16x640 [1] [0] [0] [1] [] []
  dot_S1024x640_S640x1024_S1024x1024_1_0_0_1_n_n_wf : DotDims.WF S1024x640 S640x1024 S1024x1024 [1] [0] [0] [1] [] []
  dot_S1024x640_S640x5_S1024x5_1_0_0_1_n_n_wf : DotDims.WF S1024x640 S640x5 S1024x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1024.size a ≤ S4x256x1024.size a
  hwx0_0 : ∀ i : grid0.Coords, EltTy.bits .f32 = 32 ∨ (Rect.block (s := S4x256x1024) S1x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S4x64x640.size a
  hwx0_1 : ∀ i : grid0.Coords, EltTy.bits .f32 = 32 ∨ (Rect.block (s := S4x64x640) S1x64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S1024x640.size a
  hwx0_2 : ∀ i : grid0.Coords, EltTy.bits .bf16 = 32 ∨ (Rect.block (s := S1024x640) S1024x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x640.size a
  hwx0_3 : ∀ i : grid0.Coords, EltTy.bits .f32 = 32 ∨ (Rect.block (s := S1x640) S1x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640x640.size a ≤ S640x640.size a
  hwx0_4 : ∀ i : grid0.Coords, EltTy.bits .bf16 = 32 ∨ (Rect.block (s := S640x640) S640x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x640.size a ≤ S1x640.size a
  hwx0_5 : ∀ i : grid0.Coords, EltTy.bits .f32 = 32 ∨ (Rect.block (s := S1x640) S1x640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x1024.size a ≤ S640x1024.size a
  hwx0_6 : ∀ i : grid0.Coords, EltTy.bits .bf16 = 32 ∨ (Rect.block (s := S640x1024) S640x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S640x5.size a ≤ S640x5.size a
  hwx0_8 : ∀ i : grid0.Coords, EltTy.bits .bf16 = 32 ∨ (Rect.block (s := S640x5) S640x5.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x5.size a ≤ S1x5.size a
  hwx0_9 : ∀ i : grid0.Coords, EltTy.bits .f32 = 32 ∨ (Rect.block (s := S1x5) S1x5.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16x64x1024.size a ≤ S4x256x64x1024.size a
  hwx0_10 : ∀ i : grid0.Coords, EltTy.bits .f32 = 32 ∨ (Rect.block (s := S4x256x64x1024) S1x16x64x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16x64x5.size a ≤ S4x256x64x5.size a
  hwx0_11 : ∀ i : grid0.Coords, EltTy.bits .f32 = 32 ∨ (Rect.block (s := S4x256x64x5) S1x16x64x5.size (cc0_transform_11 i) (hinb0_11 i)).WholeWords (EltTy.packing .f32)

variable [Facts₀]

def dot_S64x640_S640x640_S64x640_1_0_0_1_n_n : DotDims S64x640 S640x640 S64x640 where
  lhsContracting := [1]
  rhsContracting := [0]
  lhsNonContracting := [0]
  rhsNonContracting := [1]
  lhsBatch := []
  rhsBatch := []
  wf := dot_S64x640_S640x640_S64x640_1_0_0_1_n_n_wf
def dot_S16x1024_S1024x640_S16x640_1_0_0_1_n_n : DotDims S16x1024 S1024x640 S16x640 where
  lhsContracting := [1]
  rhsContracting := [0]
  lhsNonContracting := [0]
  rhsNonContracting := [1]
  lhsBatch := []
  rhsBatch := []
  wf := dot_S16x1024_S1024x640_S16x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf
def dot_S1024x640_S640x5_S1024x5_1_0_0_1_n_n : DotDims S1024x640 S640x5 S1024x5 where
  lhsContracting := [1]
  rhsContracting := [0]
  lhsNonContracting := [0]
  rhsNonContracting := [1]
  lhsBatch := []
  rhsBatch := []
  wf := dot_S1024x640_S640x5_S1024x5_1_0_0_1_n_n_wf

abbrev win0_0 : Pipeline.Window sig grid0 :=
  Pipeline.Window.ofSpec (Memref.whole main_arg0) S1x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S640x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S640x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S640x5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x5.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S1x16x64x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S1x16x64x5.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x256x1024 : Shape := ⟨3, ![4, 256, 1024]⟩
abbrev S4x64x640 : Shape := ⟨3, ![4, 64, 640]⟩
abbrev S640x1024 : Shape := ⟨2, ![640, 1024]⟩
abbrev S640 : Shape := ⟨1, ![640]⟩
abbrev S640x640 : Shape := ⟨2, ![640, 640]⟩
abbrev S1024x640 : Shape := ⟨2, ![1024, 640]⟩
abbrev S1024 : Shape := ⟨1, ![1024]⟩
abbrev S5x640 : Shape := ⟨2, ![5, 640]⟩
abbrev S5 : Shape := ⟨1, ![5]⟩
abbrev S4x256x640 : Shape := ⟨3, ![4, 256, 640]⟩
abbrev S1x1x640 : Shape := ⟨3, ![1, 1, 640]⟩
abbrev S4x256x1x640 : Shape := ⟨4, ![4, 256, 1, 640]⟩
abbrev S4x1x64x640 : Shape := ⟨4, ![4, 1, 64, 640]⟩
abbrev S4x256x64x640 : Shape := ⟨4, ![4, 256, 64, 640]⟩
abbrev S4x256x64x1024 : Shape := ⟨4, ![4, 256, 64, 1024]⟩
abbrev S1x1x1x1024 : Shape := ⟨4, ![1, 1, 1, 1024]⟩
abbrev S4x256x64x5 : Shape := ⟨4, ![4, 256, 64, 5]⟩
abbrev S1x1x1x5 : Shape := ⟨4, ![1, 1, 1, 5]⟩

abbrev nBuf : Space → Nat
  | .hbm => 32
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x64x640, .f32⟩
  | .hbm, ⟨2, _⟩ => ⟨S640x1024, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S5x640, .f32⟩
  | .hbm, ⟨9, _⟩ => ⟨S5, .f32⟩
  | .hbm, ⟨10, _⟩ => ⟨S4x256x640, .f32⟩
  | .hbm, ⟨11, _⟩ => ⟨S1x1x640, .f32⟩
  | .hbm, ⟨12, _⟩ => ⟨S4x256x640, .f32⟩
  | .hbm, ⟨13, _⟩ => ⟨S4x256x640, .f32⟩
  | .hbm, ⟨14, _⟩ => ⟨S4x64x640, .f32⟩
  | .hbm, ⟨15, _⟩ => ⟨S1x1x640, .f32⟩
  | .hbm, ⟨16, _⟩ => ⟨S4x64x640, .f32⟩
  | .hbm, ⟨17, _⟩ => ⟨S4x64x640, .f32⟩
  | .hbm, ⟨18, _⟩ => ⟨S4x256x1x640, .f32⟩
  | .hbm, ⟨19, _⟩ => ⟨S4x1x64x640, .f32⟩
  | .hbm, ⟨20, _⟩ => ⟨S4x256x64x640, .f32⟩
  | .hbm, ⟨21, _⟩ => ⟨S4x256x64x640, .f32⟩
  | .hbm, ⟨22, _⟩ => ⟨S4x256x64x640, .f32⟩
  | .hbm, ⟨23, _⟩ => ⟨S4x256x64x640, .f32⟩
  | .hbm, ⟨24, _⟩ => ⟨S4x256x64x1024, .f32⟩
  | .hbm, ⟨25, _⟩ => ⟨S1x1x1x1024, .f32⟩
  | .hbm, ⟨26, _⟩ => ⟨S4x256x64x1024, .f32⟩
  | .hbm, ⟨27, _⟩ => ⟨S4x256x64x1024, .f32⟩
  | .hbm, ⟨28, _⟩ => ⟨S4x256x64x5, .f32⟩
  | .hbm, ⟨29, _⟩ => ⟨S1x1x1x5, .f32⟩
  | .hbm, ⟨30, _⟩ => ⟨S4x256x64x5, .f32⟩
  | .hbm, ⟨31, _⟩ => ⟨S4x256x64x5, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x256x640_0_1_2 : S1x1x640.BroadcastsInDim S4x256x640 (![0, 1, 2] : Fin 3 → Fin S4x256x640.rank)
  bcast_S1x1x640_S4x64x640_0_1_2 : S1x1x640.BroadcastsInDim S4x64x640 (![0, 1, 2] : Fin 3 → Fin S4x64x640.rank)
  bcast_S4x256x640_S4x256x1x640_0_1_3 : S4x256x640.BroadcastsInDim S4x256x1x640 (![0, 1, 3] : Fin 3 → Fin S4x256x1x640.rank)
  bcast_S4x64x640_S4x1x64x640_0_2_3 : S4x64x640.BroadcastsInDim S4x1x64x640 (![0, 2, 3] : Fin 3 → Fin S4x1x64x640.rank)
  bcast_S4x256x1x640_S4x256x64x640_0_1_2_3 : S4x256x1x640.BroadcastsInDim S4x256x64x640 (![0, 1, 2, 3] : Fin 4 → Fin S4x256x64x640.rank)
  bcast_S4x1x64x640_S4x256x64x640_0_1_2_3 : S4x1x64x640.BroadcastsInDim S4x256x64x640 (![0, 1, 2, 3] : Fin 4 → Fin S4x256x64x640.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  bcast_S5_S1x1x1x5_3 : S5.BroadcastsInDim S1x1x1x5 (![3] : Fin 1 → Fin S1x1x1x5.rank)
  bcast_S1x1x1x5_S4x256x64x5_0_1_2_3 : S1x1x1x5.BroadcastsInDim S4x256x64x5 (![0, 1, 2, 3] : Fin 4 → Fin S4x256x64x5.rank)
  dot_S4x256x1024_S640x1024_S4x256x640_2_1_01_0_n_n_wf : DotDims.WF S4x256x1024 S640x1024 S4x256x640 [2] [1] [0, 1] [0] [] []
  dot_S4x64x640_S640x640_S4x64x640_2_1_01_0_n_n_wf : DotDims.WF S4x64x640 S640x640 S4x64x640 [2] [1] [0, 1] [0] [] []
  dot_S4x256x64x640_S1024x640_S4x256x64x1024_3_1_012_0_n_n_wf : DotDims.WF S4x256x64x640 S1024x640 S4x256x64x1024 [3] [1] [0, 1, 2] [0] [] []
  dot_S4x256x64x640_S5x640_S4x256x64x5_3_1_012_0_n_n_wf : DotDims.WF S4x256x64x640 S5x640 S4x256x64x5 [3] [1] [0, 1, 2] [0] [] []

variable [Facts₀]

def dot_S4x256x1024_S640x1024_S4x256x640_2_1_01_0_n_n : DotDims S4x256x1024 S640x1024 S4x256x640 where
  lhsContracting := [2]
  rhsContracting := [1]
  lhsNonContracting := [0, 1]
  rhsNonContracting := [0]
  lhsBatch := []
  rhsBatch := []
  wf := dot_S4x256x1024_S640x1024_S4x256x640_2_1_01_0_n_n_wf
def dot_S4x64x640_S640x640_S4x64x640_2_1_01_0_n_n : DotDims S4x64x640 S640x640 S4x64x640 where
  lhsContracting := [2]
  rhsContracting := [1]
  lhsNonContracting := [0, 1]
  rhsNonContracting := [0]
  lhsBatch := []
  rhsBatch := []
  wf := dot_S4x64x640_S640x640_S4x64x640_2_1_01_0_n_n_wf
def dot_S4x256x64x640_S1024x640_S4x256x64x1024_3_1_012_0_n_n : DotDims S4x256x64x640 S1024x640 S4x256x64x1024 where
  lhsContracting := [3]
  rhsContracting := [1]
  lhsNonContracting := [0, 1, 2]
  rhsNonContracting := [0]
  lhsBatch := []
  rhsBatch := []
  wf := dot_S4x256x64x640_S1024x640_S4x256x64x1024_3_1_012_0_n_n_wf
def dot_S4x256x64x640_S5x640_S4x256x64x5_3_1_012_0_n_n : DotDims S4x256x64x640 S5x640 S4x256x64x5 where
  lhsContracting := [3]
  rhsContracting := [1]
  lhsNonContracting := [0, 1, 2]
  rhsNonContracting := [0]
  lhsBatch := []
  rhsBatch := []
  wf := dot_S4x256x64x640_S5x640_S4x256x64x5_3_1_012_0_n_n_wf

class Facts : Prop extends Facts₀ where

variable [Facts]
-- ==== Proof.KernelCases.lean ====
/-
  What each of the body's two control cases leaves behind, as plain values.

  The body has one branch: at the first time tile of a batch entry (case A) it recomputes the predictor tile and
  stores it into the carried buffer, then goes on exactly as at every other tile (case B), reading the carried buffer
  back. So:

    case A  carried buffer := predictor tile of this point's blocks;
            token block    := token payload of this point's blocks with the carried buffer AT THE NEW predictor tile;
            duration block := duration payload of the same joint tile;
    case B  carried buffer unchanged (whatever the point before left, `acc`);
            the two blocks := the same payloads with the carried buffer at `acc`.

  Each output is one store covering its whole staging buffer, each load reads a whole buffer, and in case A the
  read-back of the carried buffer is the value just stored.
-/
import proofs.«146714_j50723563766128_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.JointCases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Case B: the carried buffer is read, not written -/

theorem logits_B (c : Dev nD) (i : grid0.Coords) (arg2 : Memref sig .tc .vmem S1x16x1024 .f32) (harg2 : arg2.IsWhole) (arg3 : Memref sig .tc .vmem S1x64x640 .f32) (harg3 : arg3.IsWhole) (arg4 : Memref sig .tc .vmem S1024x640 .bf16) (harg4 : arg4.IsWhole) (arg5 : Memref sig .tc .vmem S1x640 .f32) (harg5 : arg5.IsWhole) (arg6 : Memref sig .tc .vmem S640x640 .bf16) (harg6 : arg6.IsWhole) (arg7 : Memref sig .tc .vmem S1x640 .f32) (harg7 : arg7.IsWhole) (arg8 : Memref sig .tc .vmem S640x1024 .bf16) (harg8 : arg8.IsWhole) (arg9 : Memref sig .tc .vmem S1x1024 .f32) (harg9 : arg9.IsWhole) (arg10 : Memref sig .tc .vmem S640x5 .bf16) (harg10 : arg10.IsWhole) (arg11 : Memref sig .tc .vmem S1x5 .f32) (harg11 : arg11.IsWhole) (arg12 : Memref sig .tc .vmem S1x16x64x1024 .f32) (harg12 : arg12.IsWhole) (arg13 : Memref sig .tc .vmem S1x16x64x5 .f32) (harg13 : arg13.IsWhole) (arg14 : Memref sig .tc .vmem S64x640 .f32) (harg14 : arg14.IsWhole) (hc0 : ¬cond0_0 i) (x0 : Vec F S1x16x1024 .f32) (x1 : Vec F S1x64x640 .f32) (x2 : Vec F S1024x640 .bf16) (x3 : Vec F S1x640 .f32) (x4 : Vec F S640x640 .bf16) (x5 : Vec F S1x640 .f32) (x6 : Vec F S640x1024 .bf16) (x7 : Vec F S1x1024 .f32) (x8 : Vec F S640x5 .bf16) (x9 : Vec F S1x5 .f32) (xs0 : Vec F S64x640 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = k0_pay4 x0 x2 x3 xs0 x6 x7 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x16x1024) hz3, View.ld_unit_zero (S := S1x64x640) hz3, View.ld_unit_zero (S := S1024x640) hz2, View.ld_unit_zero (S := S1x640) hz2, View.ld_unit_zero (S := S640x640) hz2, View.ld_unit_zero (S := S640x1024) hz2, View.ld_unit_zero (S := S1x1024) hz2, View.ld_unit_zero (S := S640x5) hz2, View.ld_unit_zero (S := S1x5) hz2, View.ld_unit_zero (S := S64x640) hz2]

theorem durations_B (c : Dev nD) (i : grid0.Coords) (arg2 : Memref sig .tc .vmem S1x16x1024 .f32) (harg2 : arg2.IsWhole) (arg3 : Memref sig .tc .vmem S1x64x640 .f32) (harg3 : arg3.IsWhole) (arg4 : Memref sig .tc .vmem S1024x640 .bf16) (harg4 : arg4.IsWhole) (arg5 : Memref sig .tc .vmem S1x640 .f32) (harg5 : arg5.IsWhole) (arg6 : Memref sig .tc .vmem S640x640 .bf16) (harg6 : arg6.IsWhole) (arg7 : Memref sig .tc .vmem S1x640 .f32) (harg7 : arg7.IsWhole) (arg8 : Memref sig .tc .vmem S640x1024 .bf16) (harg8 : arg8.IsWhole) (arg9 : Memref sig .tc .vmem S1x1024 .f32) (harg9 : arg9.IsWhole) (arg10 : Memref sig .tc .vmem S640x5 .bf16) (harg10 : arg10.IsWhole) (arg11 : Memref sig .tc .vmem S1x5 .f32) (harg11 : arg11.IsWhole) (arg12 : Memref sig .tc .vmem S1x16x64x1024 .f32) (harg12 : arg12.IsWhole) (arg13 : Memref sig .tc .vmem S1x16x64x5 .f32) (harg13 : arg13.IsWhole) (arg14 : Memref sig .tc .vmem S64x640 .f32) (harg14 : arg14.IsWhole) (hc0 : ¬cond0_0 i) (x0 : Vec F S1x16x1024 .f32) (x1 : Vec F S1x64x640 .f32) (x2 : Vec F S1024x640 .bf16) (x3 : Vec F S1x640 .f32) (x4 : Vec F S640x640 .bf16) (x5 : Vec F S1x640 .f32) (x6 : Vec F S640x1024 .bf16) (x7 : Vec F S1x1024 .f32) (x8 : Vec F S640x5 .bf16) (x9 : Vec F S1x5 .f32) (xs0 : Vec F S64x640 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = k0_pay1 (k0_pay3 x0 x2 x3 xs0) x8 x9 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x16x1024) hz3, View.ld_unit_zero (S := S1x64x640) hz3, View.ld_unit_zero (S := S1024x640) hz2, View.ld_unit_zero (S := S1x640) hz2, View.ld_unit_zero (S := S640x640) hz2, View.ld_unit_zero (S := S640x1024) hz2, View.ld_unit_zero (S := S1x1024) hz2, View.ld_unit_zero (S := S640x5) hz2, View.ld_unit_zero (S := S1x5) hz2, View.ld_unit_zero (S := S64x640) hz2]

/-! ## Case A: the carried buffer is recomputed first -/

theorem cache_A (c : Dev nD) (i : grid0.Coords) (arg2 : Memref sig .tc .vmem S1x16x1024 .f32) (harg2 : arg2.IsWhole) (arg3 : Memref sig .tc .vmem S1x64x640 .f32) (harg3 : arg3.IsWhole) (arg4 : Memref sig .tc .vmem S1024x640 .bf16) (harg4 : arg4.IsWhole) (arg5 : Memref sig .tc .vmem S1x640 .f32) (harg5 : arg5.IsWhole) (arg6 : Memref sig .tc .vmem S640x640 .bf16) (harg6 : arg6.IsWhole) (arg7 : Memref sig .tc .vmem S1x640 .f32) (harg7 : arg7.IsWhole) (arg8 : Memref sig .tc .vmem S640x1024 .bf16) (harg8 : arg8.IsWhole) (arg9 : Memref sig .tc .vmem S1x1024 .f32) (harg9 : arg9.IsWhole) (arg10 : Memref sig .tc .vmem S640x5 .bf16) (harg10 : arg10.IsWhole) (arg11 : Memref sig .tc .vmem S1x5 .f32) (harg11 : arg11.IsWhole) (arg12 : Memref sig .tc .vmem S1x16x64x1024 .f32) (harg12 : arg12.IsWhole) (arg13 : Memref sig .tc .vmem S1x16x64x5 .f32) (harg13 : arg13.IsWhole) (arg14 : Memref sig .tc .vmem S64x640 .f32) (harg14 : arg14.IsWhole) (hc0 : cond0_0 i) (x0 : Vec F S1x16x1024 .f32) (x1 : Vec F S1x64x640 .f32) (x2 : Vec F S1024x640 .bf16) (x3 : Vec F S1x640 .f32) (x4 : Vec F S640x640 .bf16) (x5 : Vec F S1x640 .f32) (x6 : Vec F S640x1024 .bf16) (x7 : Vec F S1x1024 .f32) (x8 : Vec F S640x5 .bf16) (x9 : Vec F S1x5 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay2 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x16x1024) hz3, View.ld_unit_zero (S := S1x64x640) hz3, View.ld_unit_zero (S := S1024x640) hz2, View.ld_unit_zero (S := S1x640) hz2, View.ld_unit_zero (S := S640x640) hz2, View.ld_unit_zero (S := S640x1024) hz2, View.ld_unit_zero (S := S1x1024) hz2, View.ld_unit_zero (S := S640x5) hz2, View.ld_unit_zero (S := S1x5) hz2, View.ld_unit_zero (S := S64x640) hz2]

theorem logits_A (c : Dev nD) (i : grid0.Coords) (arg2 : Memref sig .tc .vmem S1x16x1024 .f32) (harg2 : arg2.IsWhole) (arg3 : Memref sig .tc .vmem S1x64x640 .f32) (harg3 : arg3.IsWhole) (arg4 : Memref sig .tc .vmem S1024x640 .bf16) (harg4 : arg4.IsWhole) (arg5 : Memref sig .tc .vmem S1x640 .f32) (harg5 : arg5.IsWhole) (arg6 : Memref sig .tc .vmem S640x640 .bf16) (harg6 : arg6.IsWhole) (arg7 : Memref sig .tc .vmem S1x640 .f32) (harg7 : arg7.IsWhole) (arg8 : Memref sig .tc .vmem S640x1024 .bf16) (harg8 : arg8.IsWhole) (arg9 : Memref sig .tc .vmem S1x1024 .f32) (harg9 : arg9.IsWhole) (arg10 : Memref sig .tc .vmem S640x5 .bf16) (harg10 : arg10.IsWhole) (arg11 : Memref sig .tc .vmem S1x5 .f32) (harg11 : arg11.IsWhole) (arg12 : Memref sig .tc .vmem S1x16x64x1024 .f32) (harg12 : arg12.IsWhole) (arg13 : Memref sig .tc .vmem S1x16x64x5 .f32) (harg13 : arg13.IsWhole) (arg14 : Memref sig .tc .vmem S64x640 .f32) (harg14 : arg14.IsWhole) (hc0 : cond0_0 i) (x0 : Vec F S1x16x1024 .f32) (x1 : Vec F S1x64x640 .f32) (x2 : Vec F S1024x640 .bf16) (x3 : Vec F S1x640 .f32) (x4 : Vec F S640x640 .bf16) (x5 : Vec F S1x640 .f32) (x6 : Vec F S640x1024 .bf16) (x7 : Vec F S1x1024 .f32) (x8 : Vec F S640x5 .bf16) (x9 : Vec F S1x5 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay4 x0 x2 x3 (k0_pay2 x1 x4 x5) x6 x7 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz4, View.readCov_unit_zero (S := S64x640) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x16x1024) hz3, View.ld_unit_zero (S := S1x64x640) hz3, View.ld_unit_zero (S := S1024x640) hz2, View.ld_unit_zero (S := S1x640) hz2, View.ld_unit_zero (S := S640x640) hz2, View.ld_unit_zero (S := S640x1024) hz2, View.ld_unit_zero (S := S1x1024) hz2, View.ld_unit_zero (S := S640x5) hz2, View.ld_unit_zero (S := S1x5) hz2, View.ld_unit_zero (S := S64x640) hz2]

theorem durations_A (c : Dev nD) (i : grid0.Coords) (arg2 : Memref sig .tc .vmem S1x16x1024 .f32) (harg2 : arg2.IsWhole) (arg3 : Memref sig .tc .vmem S1x64x640 .f32) (harg3 : arg3.IsWhole) (arg4 : Memref sig .tc .vmem S1024x640 .bf16) (harg4 : arg4.IsWhole) (arg5 : Memref sig .tc .vmem S1x640 .f32) (harg5 : arg5.IsWhole) (arg6 : Memref sig .tc .vmem S640x640 .bf16) (harg6 : arg6.IsWhole) (arg7 : Memref sig .tc .vmem S1x640 .f32) (harg7 : arg7.IsWhole) (arg8 : Memref sig .tc .vmem S640x1024 .bf16) (harg8 : arg8.IsWhole) (arg9 : Memref sig .tc .vmem S1x1024 .f32) (harg9 : arg9.IsWhole) (arg10 : Memref sig .tc .vmem S640x5 .bf16) (harg10 : arg10.IsWhole) (arg11 : Memref sig .tc .vmem S1x5 .f32) (harg11 : arg11.IsWhole) (arg12 : Memref sig .tc .vmem S1x16x64x1024 .f32) (harg12 : arg12.IsWhole) (arg13 : Memref sig .tc .vmem S1x16x64x5 .f32) (harg13 : arg13.IsWhole) (arg14 : Memref sig .tc .vmem S64x640 .f32) (harg14 : arg14.IsWhole) (hc0 : cond0_0 i) (x0 : Vec F S1x16x1024 .f32) (x1 : Vec F S1x64x640 .f32) (x2 : Vec F S1024x640 .bf16) (x3 : Vec F S1x640 .f32) (x4 : Vec F S640x640 .bf16) (x5 : Vec F S1x640 .f32) (x6 : Vec F S640x1024 .bf16) (x7 : Vec F S1x1024 .f32) (x8 : Vec F S640x5 .bf16) (x9 : Vec F S1x5 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay1 (k0_pay3 x0 x2 x3 (k0_pay2 x1 x4 x5)) x8 x9 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz4, View.readCov_unit_zero (S := S64x640) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x16x1024) hz3, View.ld_unit_zero (S := S1x64x640) hz3, View.ld_unit_zero (S := S1024x640) hz2, View.ld_unit_zero (S := S1x640) hz2, View.ld_unit_zero (S := S640x640) hz2, View.ld_unit_zero (S := S640x1024) hz2, View.ld_unit_zero (S := S1x1024) hz2, View.ld_unit_zero (S := S640x5) hz2, View.ld_unit_zero (S := S1x5) hz2, View.ld_unit_zero (S := S64x640) hz2]

end Cert.KernelIdeal.JointCases

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibBroadcastRank3.lean ====
/-
  A rank-3 array broadcast along one axis, read at one entry.

  Two companions of the library's row form for matrices: an [a, 1, c] array broadcast along its middle axis to
  [a, b, c] reads, at (p, q, r), the operand at (p, 0, r); a [1, b, c] array broadcast along its leading axis to
  [a, b, c] reads the operand at (0, q, r). (When an extent other than the broadcast one is itself 1 the coordinate there
  is 0 on both sides.)
-/
import Idealize.ShloMosaic.Lib.Pipeline.Value
import Idealize.ShloMosaic.Lib.ValueIdx

namespace Cert.LibBroadcastRank3

open Idealize.ShloMosaic Idealize.ShloMosaic.ValueIdx

/-- An [a, 1, c] array broadcast to [a, b, c] reads, at (p, q, r), the operand at (p, 0, r). -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibBroadcastRank3
-- ==== Proof.KernelBody.lean ====
/-
  What the kernel body computes, entry by entry, at the ideal instance.

  The body works on one tile: 16 encoder rows (one batch entry, 16 consecutive time steps), the 64 predictor
  rows of the same batch entry, and the four weight matrices already transposed (so every product is
  "rows of the left operand against columns of the right one") with their biases as one-row matrices.

    * the predictor tile  (u, h)      : (sum over p of pred(0, u, p) * wPredT(p, h)) + bPred(0, h);
    * the joint tile      (16 t + ... : the 16 x 64 pairs (t, u) laid out as 1024 rows, row 64 t + u holding
                                        tanh ((sum over e of enc(0, t, e) * wEncT(e, h)) + bEnc(0, h) + cache(u, h)),
                                        where cache is whatever the carried buffer holds (the predictor tile);
    * the two heads       (0, t, u, v): (sum over h of joint(64 t + u, h) * wT(h, v)) + bias(0, v).

  Each statement is over variables of the literal vector types, with the coordinates explicit; the layout
  operations (dropping or adding a leading unit axis, flattening (t, u) to 64 t + u, broadcasting a row or a
  plane) are read at an index one at a time, and each matrix product is the plain sum over the contracted axis.
-/
import proofs.«146714_j50723563766128_1_alg».proof.Proof.Gen.KernelIdeal.Skeleton
import proofs.«146714_j50723563766128_1_alg».proof.Proof.LibMatmulAt
import proofs.«146714_j50723563766128_1_alg».proof.Proof.LibBroadcastRank3
import Idealize.ShloMosaic.Lib.ValueLayout
import Idealize.ShloMosaic.Lib.Pipeline.Value
import Idealize.ShloMosaic.PureOps.Ideal.Laws

noncomputable section

open scoped BigOperators

namespace Cert.KernelIdeal.JointBody

open Cert.KernelIdeal Cert.KernelIdeal.Gen Idealize.ShloMosaic Idealize.ShloMosaic.ValueIdx Idealize.ShloMosaic.MatmulAt
open Cert.LibBroadcastRank3

/-! ## Where each matrix product reads its operands

For each of the body's four products: the left operand is read at (result row, contraction position) and the
right one at (contraction position, result column). -/

theorem pred_l0 (i : S64x640.Idx) (q : dot_S64x640_S640x640_S64x640_1_0_0_1_n_n.contr.Idx) : (dot_S64x640_S640x640_S64x640_1_0_0_1_n_n.lhsIdx i q (0 : Fin 2)).val = (i (0 : Fin 2)).val := by
  unfold DotDims.lhsIdx
  rw [dif_neg (show ¬(0 : Fin S64x640.rank) ∈ dot_S64x640_S640x640_S64x640_1_0_0_1_n_n.lhsBatch by decide), dif_pos (show (0 : Fin S64x640.rank) ∈ dot_S64x640_S640x640_S64x640_1_0_0_1_n_n.lhsNonContracting by decide)]
  rfl
theorem pred_l1 (i : S64x640.Idx) (q : dot_S64x640_S640x640_S64x640_1_0_0_1_n_n.contr.Idx) : (dot_S64x640_S640x640_S64x640_1_0_0_1_n_n.lhsIdx i q (1 : Fin 2)).val = (q ⟨0, by decide⟩).val :=
  dot_S64x640_S640x640_S64x640_1_0_0_1_n_n.lhsIdx_val_of_single rfl i q
theorem pred_r0 (i : S64x640.Idx) (q : dot_S64x640_S640x640_S64x640_1_0_0_1_n_n.contr.Idx) : (dot_S64x640_S640x640_S64x640_1_0_0_1_n_n.rhsIdx i q (0 : Fin 2)).val = (q ⟨0, by decide⟩).val :=
  dot_S64x640_S640x640_S64x640_1_0_0_1_n_n.rhsIdx_val_of_single rfl i q
theorem pred_r1 (i : S64x640.Idx) (q : dot_S64x640_S640x640_S64x640_1_0_0_1_n_n.contr.Idx) : (dot_S64x640_S640x640_S64x640_1_0_0_1_n_n.rhsIdx i q (1 : Fin 2)).val = (i (1 : Fin 2)).val := by
  unfold DotDims.rhsIdx
  rw [dif_neg (show ¬(1 : Fin S640x640.rank) ∈ dot_S64x640_S640x640_S64x640_1_0_0_1_n_n.rhsBatch by decide), dif_pos (show (1 : Fin S640x640.rank) ∈ dot_S64x640_S640x640_S64x640_1_0_0_1_n_n.rhsNonContracting by decide)]
  rfl

theorem enc_l0 (i : S16x640.Idx) (q : dot_S16x1024_S1024x640_S16x640_1_0_0_1_n_n.contr.Idx) : (dot_S16x1024_S1024x640_S16x640_1_0_0_1_n_n.lhsIdx i q (0 : Fin 2)).val = (i (0 : Fin 2)).val := by
  unfold DotDims.lhsIdx
  rw [dif_neg (show ¬(0 : Fin S16x1024.rank) ∈ dot_S16x1024_S1024x640_S16x640_1_0_0_1_n_n.lhsBatch by decide), dif_pos (show (0 : Fin S16x1024.rank) ∈ dot_S16x1024_S1024x640_S16x640_1_0_0_1_n_n.lhsNonContracting by decide)]
  rfl
theorem enc_l1 (i : S16x640.Idx) (q : dot_S16x1024_S1024x640_S16x640_1_0_0_1_n_n.contr.Idx) : (dot_S16x1024_S1024x640_S16x640_1_0_0_1_n_n.lhsIdx i q (1 : Fin 2)).val = (q ⟨0, by decide⟩).val :=
  dot_S16x1024_S1024x640_S16x640_1_0_0_1_n_n.lhsIdx_val_of_single rfl i q
theorem enc_r0 (i : S16x640.Idx) (q : dot_S16x1024_S1024x640_S16x640_1_0_0_1_n_n.contr.Idx) : (dot_S16x1024_S1024x640_S16x640_1_0_0_1_n_n.rhsIdx i q (0 : Fin 2)).val = (q ⟨0, by decide⟩).val :=
  dot_S16x1024_S1024x640_S16x640_1_0_0_1_n_n.rhsIdx_val_of_single rfl i q
theorem enc_r1 (i : S16x640.Idx) (q : dot_S16x1024_S1024x640_S16x640_1_0_0_1_n_n.contr.Idx) : (dot_S16x1024_S1024x640_S16x640_1_0_0_1_n_n.rhsIdx i q (1 : Fin 2)).val = (i (1 : Fin 2)).val := by
  unfold DotDims.rhsIdx
  rw [dif_neg (show ¬(1 : Fin S1024x640.rank) ∈ dot_S16x1024_S1024x640_S16x640_1_0_0_1_n_n.rhsBatch by decide), dif_pos (show (1 : Fin S1024x640.rank) ∈ dot_S16x1024_S1024x640_S16x640_1_0_0_1_n_n.rhsNonContracting by decide)]
  rfl

theorem out_l0 (i : S1024x1024.Idx) (q : dot_S1024x640_S640x1024_S1024x1024_1_0_0_1_n_n.contr.Idx) : (dot_S1024x640_S640x1024_S1024x1024_1_0_0_1_n_n.lhsIdx i q (0 : Fin 2)).val = (i (0 : Fin 2)).val := by
  unfold DotDims.lhsIdx
  rw [dif_neg (show ¬(0 : Fin S1024x640.rank) ∈ dot_S1024x640_S640x1024_S1024x1024_1_0_0_1_n_n.lhsBatch by decide), dif_pos (show (0 : Fin S1024x640.rank) ∈ dot_S1024x640_S640x1024_S1024x1024_1_0_0_1_n_n.lhsNonContracting by decide)]
  rfl
theorem out_l1 (i : S1024x1024.Idx) (q : dot_S1024x640_S640x1024_S1024x1024_1_0_0_1_n_n.contr.Idx) : (dot_S1024x640_S640x1024_S1024x1024_1_0_0_1_n_n.lhsIdx i q (1 : Fin 2)).val = (q ⟨0, by decide⟩).val :=
  dot_S1024x640_S640x1024_S1024x1024_1_0_0_1_n_n.lhsIdx_val_of_single rfl i q
theorem out_r0 (i : S1024x1024.Idx) (q : dot_S1024x640_S640x1024_S1024x1024_1_0_0_1_n_n.contr.Idx) : (dot_S1024x640_S640x1024_S1024x1024_1_0_0_1_n_n.rhsIdx i q (0 : Fin 2)).val = (q ⟨0, by decide⟩).val :=
  dot_S1024x640_S640x1024_S1024x1024_1_0_0_1_n_n.rhsIdx_val_of_single rfl i q
theorem out_r1 (i : S1024x1024.Idx) (q : dot_S1024x640_S640x1024_S1024x1024_1_0_0_1_n_n.contr.Idx) : (dot_S1024x640_S640x1024_S1024x1024_1_0_0_1_n_n.rhsIdx i q (1 : Fin 2)).val = (i (1 : Fin 2)).val := by
  unfold DotDims.rhsIdx
  rw [dif_neg (show ¬(1 : Fin S640x1024.rank) ∈ dot_S1024x640_S640x1024_S1024x1024_1_0_0_1_n_n.rhsBatch by decide), dif_pos (show (1 : Fin S640x1024.rank) ∈ dot_S1024x640_S640x1024_S1024x1024_1_0_0_1_n_n.rhsNonContracting by decide)]
  rfl

theorem dur_l0 (i : S1024x5.Idx) (q : dot_S1024x640_S640x5_S1024x5_1_0_0_1_n_n.contr.Idx) : (dot_S1024x640_S640x5_S1024x5_1_0_0_1_n_n.lhsIdx i q (0 : Fin 2)).val = (i (0 : Fin 2)).val := by
  unfold DotDims.lhsIdx
  rw [dif_neg (show ¬(0 : Fin S1024x640.rank) ∈ dot_S1024x640_S640x5_S1024x5_1_0_0_1_n_n.lhsBatch by decide), dif_pos (show (0 : Fin S1024x640.rank) ∈ dot_S1024x640_S640x5_S1024x5_1_0_0_1_n_n.lhsNonContracting by decide)]
  rfl
theorem dur_l1 (i : S1024x5.Idx) (q : dot_S1024x640_S640x5_S1024x5_1_0_0_1_n_n.contr.Idx) : (dot_S1024x640_S640x5_S1024x5_1_0_0_1_n_n.lhsIdx i q (1 : Fin 2)).val = (q ⟨0, by decide⟩).val :=
  dot_S1024x640_S640x5_S1024x5_1_0_0_1_n_n.lhsIdx_val_of_single rfl i q
theorem dur_r0 (i : S1024x5.Idx) (q : dot_S1024x640_S640x5_S1024x5_1_0_0_1_n_n.contr.Idx) : (dot_S1024x640_S640x5_S1024x5_1_0_0_1_n_n.rhsIdx i q (0 : Fin 2)).val = (q ⟨0, by decide⟩).val :=
  dot_S1024x640_S640x5_S1024x5_1_0_0_1_n_n.rhsIdx_val_of_single rfl i q
theorem dur_r1 (i : S1024x5.Idx) (q : dot_S1024x640_S640x5_S1024x5_1_0_0_1_n_n.contr.Idx) : (dot_S1024x640_S640x5_S1024x5_1_0_0_1_n_n.rhsIdx i q (1 : Fin 2)).val = (i (1 : Fin 2)).val := by
  unfold DotDims.rhsIdx
  rw [dif_neg (show ¬(1 : Fin S640x5.rank) ∈ dot_S1024x640_S640x5_S1024x5_1_0_0_1_n_n.rhsBatch by decide), dif_pos (show (1 : Fin S640x5.rank) ∈ dot_S1024x640_S640x5_S1024x5_1_0_0_1_n_n.rhsNonContracting by decide)]
  rfl

/-- The hyperbolic tangent of a vector, read at an index. -/
theorem tanh_apply {s : Shape} {φ : FTy} (a : FVec Ideal s φ) (i : s.Idx) : tanh a i = Ideal.tanh (a i) := rfl

/-! ## The body's four stored values -/

/-- Row 64 t + u of the flattened 16 x 64 tile. -/
def flatRow (t : Fin 16) (u : Fin 64) : Fin 1024 := ⟨t.val * 64 + u.val, by have := t.isLt; have := u.isLt; omega⟩

theorem flatRow_val (t : Fin 16) (u : Fin 64) : (flatRow t u).val = t.val * 64 + u.val := rfl

/-- The predictor tile: what the body stores into the carried buffer at a batch entry's first time tile. -/
theorem predTile_apply (v44 : Vec Ideal S1x64x640 .f32) (v47 : Vec Ideal S640x640 .bf16) (v50 : Vec Ideal S1x640 .f32)
    (u : Fin 64) (h : Fin 640) :
    k0_pay2 (F := Ideal) v44 v47 v50 (ix2 u h)
      = (∑ p : Fin 640, v44 (ix3 (0 : Fin 1) u p) * v47 (ix2 p h)) + v50 (ix2 (0 : Fin 1) h) := by
  unfold k0_pay2
  rw [shapeCast_self, addf_apply]
  rw [matmul_zero_ix2 _ rfl rfl pred_l0 pred_l1 pred_r0 pred_r1, broadcastTo_1b_ab_apply, shapeCast_self, shapeCast_self]
  refine congrArg (· + _) (Finset.sum_congr rfl fun p _ => ?_)
  rw [truncf_apply, shapeCast_1ab_ab_apply]

/-- The joint activation at (t, u, h), from the encoder tile, the transposed encoder weights, the encoder bias and
    the contents of the carried buffer. -/
def jointTile (v3 : Vec Ideal S1x16x1024 .f32) (v6 : Vec Ideal S1024x640 .bf16) (v9 : Vec Ideal S1x640 .f32)
    (v14 : Vec Ideal S64x640 .f32) (t : Fin 16) (u : Fin 64) (h : Fin 640) : EReal :=
  Ideal.tanh (((∑ e : Fin 1024, v3 (ix3 (0 : Fin 1) t e) * v6 (ix2 e h)) + v9 (ix2 (0 : Fin 1) h)) + v14 (ix2 u h))

/-- The flattened joint tile: row 64 t + u, column h. -/
theorem jointFlat_apply (v3 : Vec Ideal S1x16x1024 .f32) (v6 : Vec Ideal S1024x640 .bf16) (v9 : Vec Ideal S1x640 .f32)
    (v14 : Vec Ideal S64x640 .f32) (t : Fin 16) (u : Fin 64) (h : Fin 640) :
    k0_pay3 (F := Ideal) v3 v6 v9 v14 (ix2 (flatRow t u) h) = jointTile v3 v6 v9 v14 t u h := by
  unfold k0_pay3 jointTile
  refine (shapeCast_apply _ _ (ix2 (flatRow t u) h) (ix3 t u h) ?_).trans ?_
  · rw [Shape.rowMajor_val_three, Shape.rowMajor_val_two]
    show (t.val * 64 + u.val) * 640 + h.val = (flatRow t u).val * 640 + h.val
    rw [flatRow_val]
  rw [truncf_apply, tanh_apply, addf_apply, broadcastTo_a1c_abc_apply, broadcastTo_1bc_abc_apply,
    shapeCast_ab_1ab_apply]
  refine congrArg (fun x => Ideal.tanh (x + _)) ?_
  refine (shapeCast_apply _ _ (ix3 t (0 : Fin 1) h) (ix2 t h) ?_).trans ?_
  · rw [Shape.rowMajor_val_three, Shape.rowMajor_val_two]
    show t.val * 640 + h.val = (t.val * 1 + 0) * 640 + h.val
    rw [Nat.mul_one, Nat.add_zero]
  rw [addf_apply, matmul_zero_ix2 _ rfl rfl enc_l0 enc_l1 enc_r0 enc_r1, broadcastTo_1b_ab_apply, shapeCast_self,
    shapeCast_self]
  refine congrArg (· + _) (Finset.sum_congr rfl fun e _ => ?_)
  rw [truncf_apply, shapeCast_1ab_ab_apply]

/-- The token head's block at (0, t, u, v). -/
theorem logitsTile_apply (v3 : Vec Ideal S1x16x1024 .f32) (v6 : Vec Ideal S1024x640 .bf16) (v9 : Vec Ideal S1x640 .f32)
    (v14 : Vec Ideal S64x640 .f32) (v22 : Vec Ideal S640x1024 .bf16) (v25 : Vec Ideal S1x1024 .f32)
    (z : Fin 1) (t : Fin 16) (u : Fin 64) (v : Fin 1024) :
    k0_pay4 (F := Ideal) v3 v6 v9 v14 v22 v25 (ix4 z t u v)
      = (∑ h : Fin 640, jointTile v3 v6 v9 v14 t u h * v22 (ix2 h v)) + v25 (ix2 (0 : Fin 1) v) := by
  unfold k0_pay4
  rw [shapeCast_abc_1abc_apply]
  refine (shapeCast_apply _ _ (ix3 t u v) (ix2 (flatRow t u) v) ?_).trans ?_
  · rw [Shape.rowMajor_val_three, Shape.rowMajor_val_two]
    show (flatRow t u).val * 1024 + v.val = (t.val * 64 + u.val) * 1024 + v.val
    rw [flatRow_val]
  rw [addf_apply, matmul_zero_ix2 _ rfl rfl out_l0 out_l1 out_r0 out_r1, broadcastTo_1b_ab_apply, shapeCast_self,
    shapeCast_self]
  refine congrArg (· + _) (Finset.sum_congr rfl fun h _ => ?_)
  rw [jointFlat_apply]

/-- The duration head's block at (0, t, u, d), from the flattened joint tile. -/
theorem durTile_apply (v21 : FVec Ideal S1024x640 .bf16) (v33 : Vec Ideal S640x5 .bf16) (v36 : Vec Ideal S1x5 .f32)
    (z : Fin 1) (t : Fin 16) (u : Fin 64) (d : Fin 5) :
    k0_pay1 (F := Ideal) v21 v33 v36 (ix4 z t u d)
      = (∑ h : Fin 640, v21 (ix2 (flatRow t u) h) * v33 (ix2 h d)) + v36 (ix2 (0 : Fin 1) d) := by
  unfold k0_pay1
  rw [shapeCast_abc_1abc_apply]
  refine (shapeCast_apply _ _ (ix3 t u d) (ix2 (flatRow t u) d) ?_).trans ?_
  · rw [Shape.rowMajor_val_three, Shape.rowMajor_val_two]
    show (flatRow t u).val * 5 + d.val = (t.val * 64 + u.val) * 5 + d.val
    rw [flatRow_val]
  rw [addf_apply, matmul_zero_ix2 _ rfl rfl dur_l0 dur_l1 dur_r0 dur_r1, broadcastTo_1b_ab_apply, shapeCast_self,
    shapeCast_self]

end Cert.KernelIdeal.JointBody

end
-- ==== Proof.JointSpec.lean ====
/-
  The joint network as ONE function of its ten argument arrays, over the extended reals.

  With E the encoder output [4, 256, 1024], P the predictor output [4, 64, 640], and the four affine maps
  (W_enc [640, 1024], b_enc [640]), (W_pred [640, 640], b_pred [640]), (W_out [1024, 640], b_out [1024]),
  (W_dur [5, 640], b_dur [5]):

    encProj  b t h   = (sum over e of E(b, t, e) * W_enc(h, e)) + b_enc(h)
    predProj b u h   = (sum over p of P(b, u, p) * W_pred(h, p)) + b_pred(h)
    joint    b t u h = tanh (encProj b t h + predProj b u h)
    logits   (b, t, u, v) = (sum over h of joint b t u h * W_out(v, h)) + b_out(v)
    durations(b, t, u, d) = (sum over h of joint b t u h * W_dur(d, h)) + b_dur(d)

  Both programs compute exactly these two arrays; the only difference between them is where each
  sum's terms are read from (a transposed copy of a weight, a block of a larger array, a flattened row
  index), never the order of operations inside one entry.
-/
import Idealize.ShloMosaic.PureOps.Ideal
import Idealize.ShloMosaic.Lib.ValueIdx

noncomputable section

open scoped BigOperators

namespace Cert.JointSpec

open Idealize.ShloMosaic Idealize.ShloMosaic.ValueIdx

/-- The ten argument arrays, as functions of their indices. -/
structure Args where
  enc : (⟨3, ![4, 256, 1024]⟩ : Shape).Idx → EReal
  pred : (⟨3, ![4, 64, 640]⟩ : Shape).Idx → EReal
  wEnc : (⟨2, ![640, 1024]⟩ : Shape).Idx → EReal
  bEnc : (⟨1, ![640]⟩ : Shape).Idx → EReal
  wPred : (⟨2, ![640, 640]⟩ : Shape).Idx → EReal
  bPred : (⟨1, ![640]⟩ : Shape).Idx → EReal
  wOut : (⟨2, ![1024, 640]⟩ : Shape).Idx → EReal
  bOut : (⟨1, ![1024]⟩ : Shape).Idx → EReal
  wDur : (⟨2, ![5, 640]⟩ : Shape).Idx → EReal
  bDur : (⟨1, ![5]⟩ : Shape).Idx → EReal

variable (A : Args)

/-- The encoder projection: row (b, t) of E against row h of W_enc, plus the bias. -/
def encProj (b : Fin 4) (t : Fin 256) (h : Fin 640) : EReal :=
  (∑ e : Fin 1024, A.enc (ix3 b t e) * A.wEnc (ix2 h e)) + A.bEnc (ix1 h)

/-- The predictor projection: row (b, u) of P against row h of W_pred, plus the bias. -/
def predProj (b : Fin 4) (u : Fin 64) (h : Fin 640) : EReal :=
  (∑ p : Fin 640, A.pred (ix3 b u p) * A.wPred (ix2 h p)) + A.bPred (ix1 h)

/-- The joint activation. -/
def joint (b : Fin 4) (t : Fin 256) (u : Fin 64) (h : Fin 640) : EReal :=
  Ideal.tanh (encProj A b t h + predProj A b u h)

/-- The token head. -/
def logits : (⟨4, ![4, 256, 64, 1024]⟩ : Shape).Idx → EReal := fun i =>
  (∑ h : Fin 640, joint A (i 0) (i 1) (i 2) h * A.wOut (ix2 (i 3) h)) + A.bOut (ix1 (i 3))

/-- The duration head. -/
def durations : (⟨4, ![4, 256, 64, 5]⟩ : Shape).Idx → EReal := fun i =>
  (∑ h : Fin 640, joint A (i 0) (i 1) (i 2) h * A.wDur (ix2 (i 3) h)) + A.bDur (ix1 (i 3))

end Cert.JointSpec

end
-- ==== Proof.KernelTile.lean ====
/-
  One tile of the joint network: the body's stored values are the specification's entries.

  Suppose the body's operands hold what a tile of the whole computation should see: the encoder block is rows
  16 k .. 16 k + 15 of batch entry b, each weight operand is the transposed weight matrix, each bias operand the bias
  as one row, and the carried buffer is the predictor projection of batch entry b. Then the token block's entry
  (t, u, v) is the token head at (b, 16 k + t, u, v), the duration block's entry (t, u, d) the duration head there,
  and a recomputed carried buffer is again the predictor projection of b. Nothing is re-associated: each sum is
  over the same contracted coordinate, with the same terms, on both sides.
-/
import proofs.«146714_j50723563766128_1_alg».proof.Proof.KernelBody
import proofs.«146714_j50723563766128_1_alg».proof.Proof.JointSpec

noncomputable section

open scoped BigOperators

namespace Cert.KernelIdeal.JointBody

open Cert.KernelIdeal Cert.KernelIdeal.Gen Cert.JointSpec Idealize.ShloMosaic Idealize.ShloMosaic.ValueIdx

variable (A : Args) (b : Fin 4)

/-- Time step 16 k + t of the sequence. -/
def timeRow (k : Fin 16) (t : Fin 16) : Fin 256 := ⟨k.val * 16 + t.val, by have := k.isLt; have := t.isLt; omega⟩

theorem timeRow_val (k : Fin 16) (t : Fin 16) : (timeRow k t).val = k.val * 16 + t.val := rfl

/-- The recomputed carried buffer is the predictor projection of the batch entry. -/
theorem pred_entry (x1 : Vec Ideal S1x64x640 .f32) (x4 : Vec Ideal S640x640 .bf16) (x5 : Vec Ideal S1x640 .f32)
    (h1 : ∀ (u : Fin 64) (p : Fin 640), x1 (ix3 (0 : Fin 1) u p) = A.pred (ix3 b u p))
    (h4 : ∀ (p : Fin 640) (h : Fin 640), x4 (ix2 p h) = A.wPred (ix2 h p))
    (h5 : ∀ h : Fin 640, x5 (ix2 (0 : Fin 1) h) = A.bPred (ix1 h))
    (u : Fin 64) (h : Fin 640) :
    k0_pay2 (F := Ideal) x1 x4 x5 (ix2 u h) = predProj A b u h := by
  rw [predTile_apply, h5]
  unfold predProj
  refine congrArg (· + _) (Finset.sum_congr rfl fun p _ => ?_)
  rw [h1, h4]

/-- The joint tile is the joint activation of the tile's rows. -/
theorem joint_entry (k : Fin 16) (x0 : Vec Ideal S1x16x1024 .f32) (x2 : Vec Ideal S1024x640 .bf16) (x3 : Vec Ideal S1x640 .f32)
    (acc : Vec Ideal S64x640 .f32)
    (h0 : ∀ (t : Fin 16) (e : Fin 1024), x0 (ix3 (0 : Fin 1) t e) = A.enc (ix3 b (timeRow k t) e))
    (h2 : ∀ (e : Fin 1024) (h : Fin 640), x2 (ix2 e h) = A.wEnc (ix2 h e))
    (h3 : ∀ h : Fin 640, x3 (ix2 (0 : Fin 1) h) = A.bEnc (ix1 h))
    (hacc : ∀ (u : Fin 64) (h : Fin 640), acc (ix2 u h) = predProj A b u h)
    (t : Fin 16) (u : Fin 64) (h : Fin 640) :
    jointTile x0 x2 x3 acc t u h = joint A b (timeRow k t) u h := by
  unfold jointTile joint
  rw [h3, hacc]
  unfold encProj
  refine congrArg (fun x => Ideal.tanh ((x + _) + _)) (Finset.sum_congr rfl fun e _ => ?_)
  rw [h0, h2]

/-- The token block is the token head on the tile's rows. -/
theorem token_entry (k : Fin 16) (x0 : Vec Ideal S1x16x1024 .f32) (x2 : Vec Ideal S1024x640 .bf16) (x3 : Vec Ideal S1x640 .f32)
    (acc : Vec Ideal S64x640 .f32) (x6 : Vec Ideal S640x1024 .bf16) (x7 : Vec Ideal S1x1024 .f32)
    (h0 : ∀ (t : Fin 16) (e : Fin 1024), x0 (ix3 (0 : Fin 1) t e) = A.enc (ix3 b (timeRow k t) e))
    (h2 : ∀ (e : Fin 1024) (h : Fin 640), x2 (ix2 e h) = A.wEnc (ix2 h e))
    (h3 : ∀ h : Fin 640, x3 (ix2 (0 : Fin 1) h) = A.bEnc (ix1 h))
    (hacc : ∀ (u : Fin 64) (h : Fin 640), acc (ix2 u h) = predProj A b u h)
    (h6 : ∀ (h : Fin 640) (v : Fin 1024), x6 (ix2 h v) = A.wOut (ix2 v h))
    (h7 : ∀ v : Fin 1024, x7 (ix2 (0 : Fin 1) v) = A.bOut (ix1 v))
    (z : Fin 1) (t : Fin 16) (u : Fin 64) (v : Fin 1024) :
    k0_pay4 (F := Ideal) x0 x2 x3 acc x6 x7 (ix4 z t u v) = logits A (ix4 b (timeRow k t) u v) := by
  rw [logitsTile_apply, h7]
  show _ = (∑ h : Fin 640, joint A b (timeRow k t) u h * A.wOut (ix2 v h)) + A.bOut (ix1 v)
  refine congrArg (· + _) (Finset.sum_congr rfl fun h _ => ?_)
  rw [joint_entry A b k x0 x2 x3 acc h0 h2 h3 hacc, h6]

/-- The duration block is the duration head on the tile's rows. -/
theorem duration_entry (k : Fin 16) (x0 : Vec Ideal S1x16x1024 .f32) (x2 : Vec Ideal S1024x640 .bf16) (x3 : Vec Ideal S1x640 .f32)
    (acc : Vec Ideal S64x640 .f32) (x8 : Vec Ideal S640x5 .bf16) (x9 : Vec Ideal S1x5 .f32)
    (h0 : ∀ (t : Fin 16) (e : Fin 1024), x0 (ix3 (0 : Fin 1) t e) = A.enc (ix3 b (timeRow k t) e))
    (h2 : ∀ (e : Fin 1024) (h : Fin 640), x2 (ix2 e h) = A.wEnc (ix2 h e))
    (h3 : ∀ h : Fin 640, x3 (ix2 (0 : Fin 1) h) = A.bEnc (ix1 h))
    (hacc : ∀ (u : Fin 64) (h : Fin 640), acc (ix2 u h) = predProj A b u h)
    (h8 : ∀ (h : Fin 640) (d : Fin 5), x8 (ix2 h d) = A.wDur (ix2 d h))
    (h9 : ∀ d : Fin 5, x9 (ix2 (0 : Fin 1) d) = A.bDur (ix1 d))
    (z : Fin 1) (t : Fin 16) (u : Fin 64) (d : Fin 5) :
    k0_pay1 (F := Ideal) (k0_pay3 x0 x2 x3 acc) x8 x9 (ix4 z t u d) = durations A (ix4 b (timeRow k t) u d) := by
  rw [durTile_apply, h9]
  show _ = (∑ h : Fin 640, joint A b (timeRow k t) u h * A.wDur (ix2 d h)) + A.bDur (ix1 d)
  refine congrArg (· + _) (Finset.sum_congr rfl fun h _ => ?_)
  rw [jointFlat_apply, joint_entry A b k x0 x2 x3 acc h0 h2 h3 hacc, h8]

end Cert.KernelIdeal.JointBody

end
-- ==== Proof.KernelInputs.lean ====
/-
  The body's ten operands at a grid point, as entries of the argument arrays.

  Before the call the host transposes the four weight matrices (and rounds them to bf16, which changes nothing
  over the extended reals) and reshapes the four biases to one row. At grid point t = (batch entry t / 16, time
  tile t % 16) the pipeline hands the body the encoder rows of that tile, the predictor rows of that batch entry, and the
  eight prepared arrays whole.
-/
import proofs.«146714_j50723563766128_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.JointInputs

open Cert.KernelIdeal Cert.KernelIdeal.Gen Idealize.ShloMosaic.ValueIdx

variable (m : (ℓ : Loc nD τ sig) → Buf (Elt Ideal) ℓ)

/-! ## Where each window's block sits, decided over the 64 grid points

Point t is (batch entry t / 16, time tile t % 16). The encoder window and the two output windows move with both; the
predictor window with the batch entry only; the eight weight and bias windows never move. -/

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 4) = t.val / 16 ∧ win0_10.index t (1 : Fin 4) = t.val % 16 ∧ win0_10.index t (2 : Fin 4) = 0 ∧ win0_10.index t (3 : Fin 4) = 0 :=
  (by decide +kernel : ∀ t : Fin grid0.N, _)
theorem idx11 : ∀ t : Fin cfg0.N, win0_11.index t (0 : Fin 4) = t.val / 16 ∧ win0_11.index t (1 : Fin 4) = t.val % 16 ∧ win0_11.index t (2 : Fin 4) = 0 ∧ win0_11.index t (3 : Fin 4) = 0 :=
  (by decide +kernel : ∀ t : Fin grid0.N, _)

/-! ## The arrays the host operations before the call write: transposed weights and one-row biases -/

theorem V_wEncT (c : Dev nD) : (V m c main_v1 : S1024x640.Idx → EReal)
    = (truncf (F := Ideal) .bf16 (transpose S1024x640 [1, 0] (m ((c : Thread nD τ).loc main_arg2) : S640x1024.Idx → EReal) transposes_S640x1024_S1024x640_1_0) bitsLt_bf16_f32 : S1024x640.Idx → EReal) := by
  dsimp only [Gen.V, Gen.hostOps0]; after_results

theorem V_wPredT (c : Dev nD) : (V m c main_v3 : S640x640.Idx → EReal)
    = (truncf (F := Ideal) .bf16 (transpose S640x640 [1, 0] (m ((c : Thread nD τ).loc main_arg4) : S640x640.Idx → EReal) transposes_S640x640_S640x640_1_0) bitsLt_bf16_f32 : S640x640.Idx → EReal) := by
  dsimp only [Gen.V, Gen.hostOps0]; after_results

theorem V_wOutT (c : Dev nD) : (V m c main_v5 : S640x1024.Idx → EReal)
    = (truncf (F := Ideal) .bf16 (transpose S640x1024 [1, 0] (m ((c : Thread nD τ).loc main_arg6) : S1024x640.Idx → EReal) transposes_S1024x640_S640x1024_1_0) bitsLt_bf16_f32 : S640x1024.Idx → EReal) := by
  dsimp only [Gen.V, Gen.hostOps0]; after_results

theorem V_wDurT (c : Dev nD) : (V m c main_v7 : S640x5.Idx → EReal)
    = (truncf (F := Ideal) .bf16 (transpose S640x5 [1, 0] (m ((c : Thread nD τ).loc main_arg8) : S5x640.Idx → EReal) transposes_S5x640_S640x5_1_0) bitsLt_bf16_f32 : S640x5.Idx → EReal) := by
  dsimp only [Gen.V, Gen.hostOps0]; after_results

theorem V_bEnc (c : Dev nD) : (V m c main_v8 : S1x640.Idx → EReal)
    = (shapeCast S1x640 (m ((c : Thread nD τ).loc main_arg3) : S640.Idx → EReal) shapeCasts_S640_S1x640 : S1x640.Idx → EReal) := by
  dsimp only [Gen.V, Gen.hostOps0]; after_results; rfl

theorem V_bPred (c : Dev nD) : (V m c main_v9 : S1x640.Idx → EReal)
    = (shapeCast S1x640 (m ((c : Thread nD τ).loc main_arg5) : S640.Idx → EReal) shapeCasts_S640_S1x640 : S1x640.Idx → EReal) := by
  dsimp only [Gen.V, Gen.hostOps0]; after_results; rfl

theorem V_bOut (c : Dev nD) : (V m c main_v10 : S1x1024.Idx → EReal)
    = (shapeCast S1x1024 (m ((c : Thread nD τ).loc main_arg7) : S1024.Idx → EReal) shapeCasts_S1024_S1x1024 : S1x1024.Idx → EReal) := by
  dsimp only [Gen.V, Gen.hostOps0]; after_results; rfl

theorem V_bDur (c : Dev nD) : (V m c main_v11 : S1x5.Idx → EReal)
    = (shapeCast S1x5 (m ((c : Thread nD τ).loc main_arg9) : S5.Idx → EReal) shapeCasts_S5_S1x5 : S1x5.Idx → EReal) := by
  dsimp only [Gen.V, Gen.hostOps0]; after_results; rfl

/-! ## Each operand block, read at coordinates -/

/-- The encoder block at point t: rows 16 (t % 16) .. of batch entry t / 16. -/
theorem encBlock_apply (c : Dev nD) (t : Fin cfg0.N) (z : Fin 1) (tt : Fin 16) (e : Fin 1024) (b : Fin 4) (T : Fin 256)
    (hb : b.val = t.val / 16) (hT : T.val = (t.val % 16) * 16 + tt.val) :
    (iblk m c 0 t : Vec Ideal S1x16x1024 .f32) (ix3 z tt e) = (m ((c : Thread nD τ).loc main_arg0) : S4x256x1024.Idx → EReal) (ix3 b T e) := by
  obtain ⟨i0, i1, i2⟩ := idx0 t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * z.val = b.val; rw [i0, hb]; omega
  | ⟨1, _⟩ => show win0_0.index t (1 : Fin 3) * 16 + 1 * tt.val = T.val; rw [i1, hT]; omega
  | ⟨2, _⟩ => show win0_0.index t (2 : Fin 3) * 1024 + 1 * e.val = e.val; rw [i2]; omega

/-- The predictor block at point t: batch entry t / 16, whole. -/
theorem predBlock_apply (c : Dev nD) (t : Fin cfg0.N) (z : Fin 1) (u : Fin 64) (p : Fin 640) (b : Fin 4)
    (hb : b.val = t.val / 16) :
    (iblk m c 1 t : Vec Ideal S1x64x640 .f32) (ix3 z u p) = (m ((c : Thread nD τ).loc main_arg1) : S4x64x640.Idx → EReal) (ix3 b u p) := by
  obtain ⟨i0, i1, i2⟩ := idx1 t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * z.val = b.val; rw [i0, hb]; omega
  | ⟨1, _⟩ => show win0_1.index t (1 : Fin 3) * 64 + 1 * u.val = u.val; rw [i1]; omega
  | ⟨2, _⟩ => show win0_1.index t (2 : Fin 3) * 640 + 1 * p.val = p.val; rw [i2]; omega

/-- Operand 2 is the whole transposed matrix: entry (i, j) is the argument's entry (j, i). -/
theorem wEncT_apply (c : Dev nD) (t : Fin cfg0.N) (i : Fin 1024) (j : Fin 640) :
    (iblk m c 2 t : Vec Ideal S1024x640 .bf16) (ix2 i j) = (m ((c : Thread nD τ).loc main_arg2) : S640x1024.Idx → EReal) (ix2 j i) := by
  obtain ⟨i0, i1⟩ := idx2 t
  unfold iblk
  rw [View.read_apply]
  show V m c main_v1 _ = m (c.tc.loc main_arg2) _
  rw [V_wEncT, truncf_apply]
  refine (transpose_apply _ _ _ _ (ix2 j i) fun b => ?_).trans rfl
  match b with
  | ⟨0, _⟩ => show i.val = win0_2.index t (0 : Fin 2) * 1024 + 1 * i.val; rw [i0]; omega
  | ⟨1, _⟩ => show j.val = win0_2.index t (1 : Fin 2) * 640 + 1 * j.val; rw [i1]; omega

/-- Operand 4 is the whole transposed matrix: entry (i, j) is the argument's entry (j, i). -/
theorem wPredT_apply (c : Dev nD) (t : Fin cfg0.N) (i : Fin 640) (j : Fin 640) :
    (iblk m c 4 t : Vec Ideal S640x640 .bf16) (ix2 i j) = (m ((c : Thread nD τ).loc main_arg4) : S640x640.Idx → EReal) (ix2 j i) := by
  obtain ⟨i0, i1⟩ := idx4 t
  unfold iblk
  rw [View.read_apply]
  show V m c main_v3 _ = m (c.tc.loc main_arg4) _
  rw [V_wPredT, truncf_apply]
  refine (transpose_apply _ _ _ _ (ix2 j i) fun b => ?_).trans rfl
  match b with
  | ⟨0, _⟩ => show i.val = win0_4.index t (0 : Fin 2) * 640 + 1 * i.val; rw [i0]; omega
  | ⟨1, _⟩ => show j.val = win0_4.index t (1 : Fin 2) * 640 + 1 * j.val; rw [i1]; omega

/-- Operand 6 is the whole transposed matrix: entry (i, j) is the argument's entry (j, i). -/
theorem wOutT_apply (c : Dev nD) (t : Fin cfg0.N) (i : Fin 640) (j : Fin 1024) :
    (iblk m c 6 t : Vec Ideal S640x1024 .bf16) (ix2 i j) = (m ((c : Thread nD τ).loc main_arg6) : S1024x640.Idx → EReal) (ix2 j i) := by
  obtain ⟨i0, i1⟩ := idx6 t
  unfold iblk
  rw [View.read_apply]
  show V m c main_v5 _ = m (c.tc.loc main_arg6) _
  rw [V_wOutT, truncf_apply]
  refine (transpose_apply _ _ _ _ (ix2 j i) fun b => ?_).trans rfl
  match b with
  | ⟨0, _⟩ => show i.val = win0_6.index t (0 : Fin 2) * 640 + 1 * i.val; rw [i0]; omega
  | ⟨1, _⟩ => show j.val = win0_6.index t (1 : Fin 2) * 1024 + 1 * j.val; rw [i1]; omega

/-- Operand 8 is the whole transposed matrix: entry (i, j) is the argument's entry (j, i). -/
theorem wDurT_apply (c : Dev nD) (t : Fin cfg0.N) (i : Fin 640) (j : Fin 5) :
    (iblk m c 8 t : Vec Ideal S640x5 .bf16) (ix2 i j) = (m ((c : Thread nD τ).loc main_arg8) : S5x640.Idx → EReal) (ix2 j i) := by
  obtain ⟨i0, i1⟩ := idx8 t
  unfold iblk
  rw [View.read_apply]
  show V m c main_v7 _ = m (c.tc.loc main_arg8) _
  rw [V_wDurT, truncf_apply]
  refine (transpose_apply _ _ _ _ (ix2 j i) fun b => ?_).trans rfl
  match b with
  | ⟨0, _⟩ => show i.val = win0_8.index t (0 : Fin 2) * 640 + 1 * i.val; rw [i0]; omega
  | ⟨1, _⟩ => show j.val = win0_8.index t (1 : Fin 2) * 5 + 1 * j.val; rw [i1]; omega

/-- Operand 3 is the bias as one row. -/
theorem bEnc_apply (c : Dev nD) (t : Fin cfg0.N) (z : Fin 1) (j : Fin 640) :
    (iblk m c 3 t : Vec Ideal S1x640 .f32) (ix2 z j) = (m ((c : Thread nD τ).loc main_arg3) : S640.Idx → EReal) (ix1 j) := by
  obtain ⟨i0, i1⟩ := idx3 t
  unfold iblk
  rw [View.read_apply]
  show V m c main_v8 _ = m (c.tc.loc main_arg3) _
  rw [V_bEnc]
  refine (shapeCast_apply _ _ _ (ix1 j) ?_).trans rfl
  rw [Shape.rowMajor_val_two, Shape.rowMajor_val_one]
  show j.val = (win0_3.index t (0 : Fin 2) * 1 + 1 * z.val) * 640 + (win0_3.index t (1 : Fin 2) * 640 + 1 * j.val)
  rw [i0, i1]; omega

/-- Operand 5 is the bias as one row. -/
theorem bPred_apply (c : Dev nD) (t : Fin cfg0.N) (z : Fin 1) (j : Fin 640) :
    (iblk m c 5 t : Vec Ideal S1x640 .f32) (ix2 z j) = (m ((c : Thread nD τ).loc main_arg5) : S640.Idx → EReal) (ix1 j) := by
  obtain ⟨i0, i1⟩ := idx5 t
  unfold iblk
  rw [View.read_apply]
  show V m c main_v9 _ = m (c.tc.loc main_arg5) _
  rw [V_bPred]
  refine (shapeCast_apply _ _ _ (ix1 j) ?_).trans rfl
  rw [Shape.rowMajor_val_two, Shape.rowMajor_val_one]
  show j.val = (win0_5.index t (0 : Fin 2) * 1 + 1 * z.val) * 640 + (win0_5.index t (1 : Fin 2) * 640 + 1 * j.val)
  rw [i0, i1]; omega

/-- Operand 7 is the bias as one row. -/
theorem bOut_apply (c : Dev nD) (t : Fin cfg0.N) (z : Fin 1) (j : Fin 1024) :
    (iblk m c 7 t : Vec Ideal S1x1024 .f32) (ix2 z j) = (m ((c : Thread nD τ).loc main_arg7) : S1024.Idx → EReal) (ix1 j) := by
  obtain ⟨i0, i1⟩ := idx7 t
  unfold iblk
  rw [View.read_apply]
  show V m c main_v10 _ = m (c.tc.loc main_arg7) _
  rw [V_bOut]
  refine (shapeCast_apply _ _ _ (ix1 j) ?_).trans rfl
  rw [Shape.rowMajor_val_two, Shape.rowMajor_val_one]
  show j.val = (win0_7.index t (0 : Fin 2) * 1 + 1 * z.val) * 1024 + (win0_7.index t (1 : Fin 2) * 1024 + 1 * j.val)
  rw [i0, i1]; omega

/-- Operand 9 is the bias as one row. -/
theorem bDur_apply (c : Dev nD) (t : Fin cfg0.N) (z : Fin 1) (j : Fin 5) :
    (iblk m c 9 t : Vec Ideal S1x5 .f32) (ix2 z j) = (m ((c : Thread nD τ).loc main_arg9) : S5.Idx → EReal) (ix1 j) := by
  obtain ⟨i0, i1⟩ := idx9 t
  unfold iblk
  rw [View.read_apply]
  show V m c main_v11 _ = m (c.tc.loc main_arg9) _
  rw [V_bDur]
  refine (shapeCast_apply _ _ _ (ix1 j) ?_).trans rfl
  rw [Shape.rowMajor_val_two, Shape.rowMajor_val_one]
  show j.val = (win0_9.index t (0 : Fin 2) * 1 + 1 * z.val) * 5 + (win0_9.index t (1 : Fin 2) * 5 + 1 * j.val)
  rw [i0, i1]; omega

end Cert.KernelIdeal.JointInputs

end
-- ==== Proof.KernelValue.lean ====
/-
  What the kernel's two result arrays hold after the run: the specification's token head and duration head.

  The grid runs batch entry by batch entry, and inside one batch entry time tile by time tile. The buffer the body
  carries from point to point is refilled at each batch entry's first tile and only read afterwards, so after EVERY
  point it holds the predictor projection of that point's batch entry (induction on the point: a first tile
  recomputes it from this batch entry's predictor rows; any other tile leaves what the point before left, which
  belongs to the same batch entry). Given that, what each point writes back is its 16 time steps of the two heads
  (the tile lemmas, at the operand blocks the pipeline hands the body); the points' blocks tile both result arrays;
  so the arrays end at the two heads, index by index.
-/
import proofs.«146714_j50723563766128_1_alg».proof.Proof.Gen.KernelIdeal.Value
import proofs.«146714_j50723563766128_1_alg».proof.Proof.KernelCases
import proofs.«146714_j50723563766128_1_alg».proof.Proof.KernelTile
import proofs.«146714_j50723563766128_1_alg».proof.Proof.KernelInputs

noncomputable section

open Idealize.ShloMosaic Idealize.ShloMosaic.TcCoe Idealize.SL.Sem
open Idealize.ShloMosaic.Pipeline (Dat)

namespace Cert.KernelIdeal.JointValue

open Cert.KernelIdeal Cert.KernelIdeal.Gen Cert.JointSpec Idealize.ShloMosaic.ValueIdx
open Cert.KernelIdeal.JointBody Cert.KernelIdeal.JointCases Cert.KernelIdeal.JointInputs

variable (m : (ℓ : Loc nD τ sig) → Buf (Elt Ideal) ℓ) (ρ : Dev nD → PrngReg)

/-- The kernel's ten arguments, as launched, as the specification's. -/
abbrev kArgs (c : Dev nD) : Args :=
  { enc := m ((c : Thread nD τ).loc main_arg0), pred := m ((c : Thread nD τ).loc main_arg1),
    wEnc := m ((c : Thread nD τ).loc main_arg2), bEnc := m ((c : Thread nD τ).loc main_arg3),
    wPred := m ((c : Thread nD τ).loc main_arg4), bPred := m ((c : Thread nD τ).loc main_arg5),
    wOut := m ((c : Thread nD τ).loc main_arg6), bOut := m ((c : Thread nD τ).loc main_arg7),
    wDur := m ((c : Thread nD τ).loc main_arg8), bDur := m ((c : Thread nD τ).loc main_arg9) }

/-- The batch entry of grid point t. -/
def batchOf (t : Fin cfg0.N) : Fin 4 := ⟨t.val / 16, by have := t.isLt; have hN : cfg0.N = 64 := N_0; omega⟩
/-- The time tile of grid point t. -/
def tileOf (t : Fin cfg0.N) : Fin 16 := ⟨t.val % 16, Nat.mod_lt _ (by decide)⟩

/-! ## The carried buffer holds the predictor projection of the point's batch entry -/

/-- At a batch entry's first tile the buffer is recomputed from this entry's predictor rows. -/
theorem cache_reset (c : Dev nD) (t : Fin cfg0.N) (h0 : t.val % 16 = 0) (u : Fin 64) (h : Fin 640) :
    (outsAt0 m c t.val t.isLt).2.2 (ix2 u h) = predProj (kArgs m c) (batchOf t) u h := by
  rw [outsAt0_A m c t h0]
  dsimp only
  rw [cache_A]
  exact pred_entry (kArgs m c) (batchOf t) (iblk m c 1 t) (iblk m c 4 t) (iblk m c 5 t) (fun u p => predBlock_apply m c t 0 u p (batchOf t) rfl) (fun p h => wPredT_apply m c t p h) (fun h => bPred_apply m c t 0 h) u h

/-- After every point: by induction on the point. -/
theorem cache_eq (c : Dev nD) : ∀ (n : ℕ) (hn : n < cfg0.N) (u : Fin 64) (h : Fin 640),
    (outsAt0 m c n hn).2.2 (ix2 u h) = predProj (kArgs m c) (batchOf ⟨n, hn⟩) u h
  | 0, hn, u, h => cache_reset m c ⟨0, hn⟩ rfl u h
  | n + 1, hn, u, h => by
    by_cases h0 : (n + 1) % 16 = 0
    · exact cache_reset m c ⟨n + 1, hn⟩ h0 u h
    · rw [outsAt0_B m c ⟨n + 1, hn⟩ h0]
      dsimp only
      unfold sout0_B_0
      show (outsAt0 m c n _).2.2 (ix2 u h) = _
      rw [cache_eq c n (Nat.lt_of_succ_lt hn) u h]
      have e : batchOf ⟨n, Nat.lt_of_succ_lt hn⟩ = batchOf ⟨n + 1, hn⟩ := Fin.ext (by show n / 16 = (n + 1) / 16; omega)
      rw [e]

/-! ## What each point writes back -/

/-- The token block of point t, whatever buffer contents it ran with, provided they are the predictor projection. -/
theorem tokenBlock (c : Dev nD) (t : Fin cfg0.N) (acc : Vec Ideal S64x640 .f32)
    (hacc : ∀ (u : Fin 64) (h : Fin 640), acc (ix2 u h) = predProj (kArgs m c) (batchOf t) u h) :
    (cfg0.win 10).cut (grid0.coords t) (k0_pay4 (F := Ideal) (iblk m c 0 t) (iblk m c 2 t) (iblk m c 3 t) acc (iblk m c 6 t) (iblk m c 7 t))
      = ((cfg0.win 10).blk t).view.read (Elt Ideal) (logits (kArgs m c)) := by
  obtain ⟨i0, i1, i2, i3⟩ := idx10 t
  refine funext fun (j : S1x16x64x1024.Idx) => ?_
  obtain ⟨z, tt, u, v, rfl⟩ : ∃ (z : Fin 1) (tt : Fin 16) (u : Fin 64) (v : Fin 1024), j = ix4 z tt u v :=
    ⟨j 0, j 1, j 2, j 3, eq_ix4 j⟩
  show k0_pay4 (F := Ideal) (iblk m c 0 t) (iblk m c 2 t) (iblk m c 3 t) acc (iblk m c 6 t) (iblk m c 7 t) (ix4 z tt u v)
    = logits (kArgs m c) (((cfg0.win 10).blk t).view.emb (ix4 z tt u v))
  refine (token_entry (kArgs m c) (batchOf t) (tileOf t) (iblk m c 0 t) (iblk m c 2 t) (iblk m c 3 t) acc (iblk m c 6 t) (iblk m c 7 t)
    (fun tt e => encBlock_apply m c t 0 tt e (batchOf t) (timeRow (tileOf t) tt) rfl rfl) (fun e h => wEncT_apply m c t e h) (fun h => bEnc_apply m c t 0 h) hacc (fun h v => wOutT_apply m c t h v) (fun v => bOut_apply m c t 0 v) z tt u v).trans ?_
  refine congrArg (logits (kArgs m c)) (funext fun a => Fin.ext ?_)
  match a with
  | ⟨0, _⟩ => show t.val / 16 = win0_10.index t (0 : Fin 4) * 1 + 1 * z.val; rw [i0]; omega
  | ⟨1, _⟩ => show t.val % 16 * 16 + tt.val = win0_10.index t (1 : Fin 4) * 16 + 1 * tt.val; rw [i1]; omega
  | ⟨2, _⟩ => show u.val = win0_10.index t (2 : Fin 4) * 64 + 1 * u.val; rw [i2]; omega
  | ⟨3, _⟩ => show v.val = win0_10.index t (3 : Fin 4) * 1024 + 1 * v.val; rw [i3]; omega

/-- The duration block of point t, likewise. -/
theorem durationBlock (c : Dev nD) (t : Fin cfg0.N) (acc : Vec Ideal S64x640 .f32)
    (hacc : ∀ (u : Fin 64) (h : Fin 640), acc (ix2 u h) = predProj (kArgs m c) (batchOf t) u h) :
    (cfg0.win 11).cut (grid0.coords t) (k0_pay1 (F := Ideal) (k0_pay3 (iblk m c 0 t) (iblk m c 2 t) (iblk m c 3 t) acc) (iblk m c 8 t) (iblk m c 9 t))
      = ((cfg0.win 11).blk t).view.read (Elt Ideal) (durations (kArgs m c)) := by
  obtain ⟨i0, i1, i2, i3⟩ := idx11 t
  refine funext fun (j : S1x16x64x5.Idx) => ?_
  obtain ⟨z, tt, u, d, rfl⟩ : ∃ (z : Fin 1) (tt : Fin 16) (u : Fin 64) (d : Fin 5), j = ix4 z tt u d :=
    ⟨j 0, j 1, j 2, j 3, eq_ix4 j⟩
  show k0_pay1 (F := Ideal) (k0_pay3 (iblk m c 0 t) (iblk m c 2 t) (iblk m c 3 t) acc) (iblk m c 8 t) (iblk m c 9 t) (ix4 z tt u d)
    = durations (kArgs m c) (((cfg0.win 11).blk t).view.emb (ix4 z tt u d))
  refine (duration_entry (kArgs m c) (batchOf t) (tileOf t) (iblk m c 0 t) (iblk m c 2 t) (iblk m c 3 t) acc (iblk m c 8 t) (iblk m c 9 t)
    (fun tt e => encBlock_apply m c t 0 tt e (batchOf t) (timeRow (tileOf t) tt) rfl rfl) (fun e h => wEncT_apply m c t e h) (fun h => bEnc_apply m c t 0 h) hacc (fun h d => wDurT_apply m c t h d) (fun d => bDur_apply m c t 0 d) z tt u d).trans ?_
  refine congrArg (durations (kArgs m c)) (funext fun a => Fin.ext ?_)
  match a with
  | ⟨0, _⟩ => show t.val / 16 = win0_11.index t (0 : Fin 4) * 1 + 1 * z.val; rw [i0]; omega
  | ⟨1, _⟩ => show t.val % 16 * 16 + tt.val = win0_11.index t (1 : Fin 4) * 16 + 1 * tt.val; rw [i1]; omega
  | ⟨2, _⟩ => show u.val = win0_11.index t (2 : Fin 4) * 64 + 1 * u.val; rw [i2]; omega
  | ⟨3, _⟩ => show d.val = win0_11.index t (3 : Fin 4) * 5 + 1 * d.val; rw [i3]; omega

/-- The buffer contents a point that is not a first tile runs with: the point before belongs to the same batch entry. -/
theorem cache_before (c : Dev nD) (t : Fin cfg0.N) (h0 : ¬t.val % 16 = 0) (u : Fin 64) (h : Fin 640) :
    (outsAt0 m c (t.val - 1) (Nat.lt_of_le_of_lt (Nat.sub_le _ _) t.isLt)).2.2 (ix2 u h) = predProj (kArgs m c) (batchOf t) u h := by
  rw [cache_eq m c (t.val - 1) _ u h]
  have e : batchOf ⟨t.val - 1, Nat.lt_of_le_of_lt (Nat.sub_le _ _) t.isLt⟩ = batchOf t :=
    Fin.ext (by show (t.val - 1) / 16 = t.val / 16; omega)
  rw [e]

/-- What point t writes back to the token array is block t of the token head. -/
theorem flushed10_eq (c : Dev nD) (t : Fin cfg0.N) :
    (dats m 0 c).flushed 10 t = ((cfg0.win 10).blk t).view.read (Elt Ideal) (logits (kArgs m c)) := by
  by_cases h0 : t.val % 16 = 0
  · rw [Value.flushed10_A m c t h0, logits_A]
    exact tokenBlock m c t _ fun u h =>
      pred_entry (kArgs m c) (batchOf t) (iblk m c 1 t) (iblk m c 4 t) (iblk m c 5 t) (fun u p => predBlock_apply m c t 0 u p (batchOf t) rfl) (fun p h => wPredT_apply m c t p h) (fun h => bPred_apply m c t 0 h) u h
  · rw [Value.flushed10_B m c t h0, logits_B]
    exact tokenBlock m c t _ (cache_before m c t h0)

/-- What point t writes back to the duration array is block t of the duration head. -/
theorem flushed11_eq (c : Dev nD) (t : Fin cfg0.N) :
    (dats m 0 c).flushed 11 t = ((cfg0.win 11).blk t).view.read (Elt Ideal) (durations (kArgs m c)) := by
  by_cases h0 : t.val % 16 = 0
  · rw [Value.flushed11_A m c t h0, durations_A]
    exact durationBlock m c t _ fun u h =>
      pred_entry (kArgs m c) (batchOf t) (iblk m c 1 t) (iblk m c 4 t) (iblk m c 5 t) (fun u p => predBlock_apply m c t 0 u p (batchOf t) rfl) (fun p h => wPredT_apply m c t p h) (fun h => bPred_apply m c t 0 h) u h
  · rw [Value.flushed11_B m c t h0, durations_B]
    exact durationBlock m c t _ (cache_before m c t h0)

/-! ## The blocks tile the two arrays -/

/-- An index of the token array is in point t's block iff each coordinate is in the block's range on its axis. -/
theorem mem_blk10 (t : Fin cfg0.N) (i : S4x256x64x1024.Idx) :
    i ∈ ((cfg0.win 10).blk t).view.set ↔ ∀ a : Fin 4, win0_10.index t a * S1x16x64x1024.size a ≤ (i a).val ∧ (i a).val < win0_10.index t a * S1x16x64x1024.size a + S1x16x64x1024.size a := by
  show i ∈ ((View.whole main_v12_0).slice (win0_10.rect t)).set ↔ _
  rw [View.set_slice_whole, Rect.mem_set_unit]
  exact Iff.rfl

/-- Every entry (b, T, u, ·) lies in the block of the point (b, T / 16). -/
theorem cover10 (i : S4x256x64x1024.Idx) : ∃ t : Fin cfg0.N, (cfg0.win 10).flush t = true ∧ i ∈ ((cfg0.win 10).blk t).view.set := by
  have h0 : (i 0).val < 4 := (i 0).isLt
  have h1 : (i 1).val < 256 := (i 1).isLt
  have h2 : (i 2).val < 64 := (i 2).isLt
  have h3 : (i 3).val < 1024 := (i 3).isLt
  have hN : cfg0.N = 64 := N_0
  have hlt : (i 0).val * 16 + (i 1).val / 16 < cfg0.N := by omega
  refine ⟨⟨(i 0).val * 16 + (i 1).val / 16, hlt⟩, flush0_10 _, ?_⟩
  rw [mem_blk10]
  obtain ⟨e0, e1, e2, e3⟩ := idx10 ⟨(i 0).val * 16 + (i 1).val / 16, hlt⟩
  intro a
  match a with
  | ⟨0, _⟩ =>
    show win0_10.index _ (0 : Fin 4) * 1 ≤ (i 0).val ∧ (i 0).val < win0_10.index _ (0 : Fin 4) * 1 + 1
    rw [e0]; show ((i 0).val * 16 + (i 1).val / 16) / 16 * 1 ≤ (i 0).val ∧ (i 0).val < ((i 0).val * 16 + (i 1).val / 16) / 16 * 1 + 1; omega
  | ⟨1, _⟩ =>
    show win0_10.index _ (1 : Fin 4) * 16 ≤ (i 1).val ∧ (i 1).val < win0_10.index _ (1 : Fin 4) * 16 + 16
    rw [e1]; show ((i 0).val * 16 + (i 1).val / 16) % 16 * 16 ≤ (i 1).val ∧ (i 1).val < ((i 0).val * 16 + (i 1).val / 16) % 16 * 16 + 16; omega
  | ⟨2, _⟩ =>
    show win0_10.index _ (2 : Fin 4) * 64 ≤ (i 2).val ∧ (i 2).val < win0_10.index _ (2 : Fin 4) * 64 + 64
    rw [e2]; omega
  | ⟨3, _⟩ =>
    show win0_10.index _ (3 : Fin 4) * 1024 ≤ (i 3).val ∧ (i 3).val < win0_10.index _ (3 : Fin 4) * 1024 + 1024
    rw [e3]; omega

/-- An index of the duration array is in point t's block iff each coordinate is in the block's range on its axis. -/
theorem mem_blk11 (t : Fin cfg0.N) (i : S4x256x64x5.Idx) :
    i ∈ ((cfg0.win 11).blk t).view.set ↔ ∀ a : Fin 4, win0_11.index t a * S1x16x64x5.size a ≤ (i a).val ∧ (i a).val < win0_11.index t a * S1x16x64x5.size a + S1x16x64x5.size a := by
  show i ∈ ((View.whole main_v12_1).slice (win0_11.rect t)).set ↔ _
  rw [View.set_slice_whole, Rect.mem_set_unit]
  exact Iff.rfl

/-- Every entry (b, T, u, ·) lies in the block of the point (b, T / 16). -/
theorem cover11 (i : S4x256x64x5.Idx) : ∃ t : Fin cfg0.N, (cfg0.win 11).flush t = true ∧ i ∈ ((cfg0.win 11).blk t).view.set := by
  have h0 : (i 0).val < 4 := (i 0).isLt
  have h1 : (i 1).val < 256 := (i 1).isLt
  have h2 : (i 2).val < 64 := (i 2).isLt
  have h3 : (i 3).val < 5 := (i 3).isLt
  have hN : cfg0.N = 64 := N_0
  have hlt : (i 0).val * 16 + (i 1).val / 16 < cfg0.N := by omega
  refine ⟨⟨(i 0).val * 16 + (i 1).val / 16, hlt⟩, flush0_11 _, ?_⟩
  rw [mem_blk11]
  obtain ⟨e0, e1, e2, e3⟩ := idx11 ⟨(i 0).val * 16 + (i 1).val / 16, hlt⟩
  intro a
  match a with
  | ⟨0, _⟩ =>
    show win0_11.index _ (0 : Fin 4) * 1 ≤ (i 0).val ∧ (i 0).val < win0_11.index _ (0 : Fin 4) * 1 + 1
    rw [e0]; show ((i 0).val * 16 + (i 1).val / 16) / 16 * 1 ≤ (i 0).val ∧ (i 0).val < ((i 0).val * 16 + (i 1).val / 16) / 16 * 1 + 1; omega
  | ⟨1, _⟩ =>
    show win0_11.index _ (1 : Fin 4) * 16 ≤ (i 1).val ∧ (i 1).val < win0_11.index _ (1 : Fin 4) * 16 + 16
    rw [e1]; show ((i 0).val * 16 + (i 1).val / 16) % 16 * 16 ≤ (i 1).val ∧ (i 1).val < ((i 0).val * 16 + (i 1).val / 16) % 16 * 16 + 16; omega
  | ⟨2, _⟩ =>
    show win0_11.index _ (2 : Fin 4) * 64 ≤ (i 2).val ∧ (i 2).val < win0_11.index _ (2 : Fin 4) * 64 + 64
    rw [e2]; omega
  | ⟨3, _⟩ =>
    show win0_11.index _ (3 : Fin 4) * 5 ≤ (i 3).val ∧ (i 3).val < win0_11.index _ (3 : Fin 4) * 5 + 5
    rw [e3]; omega

/-! ## The arrays after the run, and the run -/

theorem final10 (c : Dev nD) : (dats m 0 c).arrAt 10 cfg0.N = logits (kArgs m c) :=
  (dats m 0 c).arrAt_eq_of_cover 10 (logits (kArgs m c)) (fun t _ => flushed10_eq m c t) cover10

theorem final11 (c : Dev nD) : (dats m 0 c).arrAt 11 cfg0.N = durations (kArgs m c) :=
  (dats m 0 c).arrAt_eq_of_cover 11 (durations (kArgs m c)) (fun t _ => flushed11_eq m c t) cover11

/-- Every weakly fair execution terminates with the two results at the two heads of the launch arguments, the arguments
    unchanged. -/
theorem run : θ_run defs (onTc (τ := τ) (main (F := Ideal))) ⟨m, fun _ => 0, ρ⟩ fun r => ∀ c : Dev nD,
      r.2.mem ((c : Thread nD τ).loc main_v12_0) = logits (kArgs m c)
      ∧ r.2.mem ((c : Thread nD τ).loc main_v12_1) = durations (kArgs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelIdeal.JointValue

end
-- ==== Proof.ReferenceValue.lean ====
/-
  The reference computes the joint network's two arrays.

  Its operations are read one at a time at an index (the generated stage lemmas): each of its four contractions is
  the sum over the contracted coordinate, each bias is broadcast along the other axes, the two projections are
  broadcast against each other along the time axis and the label axis, and the hyperbolic tangent is applied entry
  by entry. Composed, the two results are the specification's token head and duration head of the ten arguments.
-/
import proofs.«146714_j50723563766128_1_alg».proof.Proof.Gen.ReferenceIdeal.Read
import proofs.«146714_j50723563766128_1_alg».proof.Proof.JointSpec

noncomputable section

open scoped BigOperators

namespace Cert.ReferenceIdeal.RefValue

open Cert.ReferenceIdeal Cert.ReferenceIdeal.Read Cert.JointSpec Idealize.ShloMosaic Idealize.ShloMosaic.ValueIdx

/-- The reference's ten arguments as the specification's. -/
abbrev refArgs (x0 : (⟨S4x256x1024, .f32⟩ : BufTy).Contents (Elt Ideal)) (x1 : (⟨S4x64x640, .f32⟩ : BufTy).Contents (Elt Ideal)) (x2 : (⟨S640x1024, .f32⟩ : BufTy).Contents (Elt Ideal)) (x3 : (⟨S640, .f32⟩ : BufTy).Contents (Elt Ideal)) (x4 : (⟨S640x640, .f32⟩ : BufTy).Contents (Elt Ideal)) (x5 : (⟨S640, .f32⟩ : BufTy).Contents (Elt Ideal)) (x6 : (⟨S1024x640, .f32⟩ : BufTy).Contents (Elt Ideal)) (x7 : (⟨S1024, .f32⟩ : BufTy).Contents (Elt Ideal)) (x8 : (⟨S5x640, .f32⟩ : BufTy).Contents (Elt Ideal)) (x9 : (⟨S5, .f32⟩ : BufTy).Contents (Elt Ideal)) : Args :=
  { enc := x0, pred := x1, wEnc := x2, bEnc := x3, wPred := x4, bPred := x5, wOut := x6, bOut := x7, wDur := x8, bDur := x9 }

variable (x0 : (⟨S4x256x1024, .f32⟩ : BufTy).Contents (Elt Ideal)) (x1 : (⟨S4x64x640, .f32⟩ : BufTy).Contents (Elt Ideal)) (x2 : (⟨S640x1024, .f32⟩ : BufTy).Contents (Elt Ideal)) (x3 : (⟨S640, .f32⟩ : BufTy).Contents (Elt Ideal)) (x4 : (⟨S640x640, .f32⟩ : BufTy).Contents (Elt Ideal)) (x5 : (⟨S640, .f32⟩ : BufTy).Contents (Elt Ideal)) (x6 : (⟨S1024x640, .f32⟩ : BufTy).Contents (Elt Ideal)) (x7 : (⟨S1024, .f32⟩ : BufTy).Contents (Elt Ideal)) (x8 : (⟨S5x640, .f32⟩ : BufTy).Contents (Elt Ideal)) (x9 : (⟨S5, .f32⟩ : BufTy).Contents (Elt Ideal))

/-! ## The operand indices of each stage, by coordinates -/

theorem lidx0 (b : Fin 4) (t : Fin 256) (h : Fin 640) (k : Fin 1024) : lidx_main_v0 (ix3 b t h) k = ix3 b t k :=
  funext fun a => match a with | ⟨0, _⟩ => rfl | ⟨1, _⟩ => rfl | ⟨2, _⟩ => rfl
theorem ridx0 (b : Fin 4) (t : Fin 256) (h : Fin 640) (k : Fin 1024) : ridx_main_v0 (ix3 b t h) k = ix2 h k :=
  funext fun a => match a with | ⟨0, _⟩ => rfl | ⟨1, _⟩ => rfl
theorem bidx2 (b : Fin 4) (t : Fin 256) (h : Fin 640) : idx_main_v1 (idx_main_v2 (ix3 b t h)) = ix1 h :=
  funext fun a => match a with | ⟨0, _⟩ => rfl
theorem lidx4 (b : Fin 4) (u : Fin 64) (h : Fin 640) (k : Fin 640) : lidx_main_v4 (ix3 b u h) k = ix3 b u k :=
  funext fun a => match a with | ⟨0, _⟩ => rfl | ⟨1, _⟩ => rfl | ⟨2, _⟩ => rfl
theorem ridx4 (b : Fin 4) (u : Fin 64) (h : Fin 640) (k : Fin 640) : ridx_main_v4 (ix3 b u h) k = ix2 h k :=
  funext fun a => match a with | ⟨0, _⟩ => rfl | ⟨1, _⟩ => rfl
theorem bidx6 (b : Fin 4) (u : Fin 64) (h : Fin 640) : idx_main_v5 (idx_main_v6 (ix3 b u h)) = ix1 h :=
  funext fun a => match a with | ⟨0, _⟩ => rfl
theorem eidx (b : Fin 4) (t : Fin 256) (u : Fin 64) (h : Fin 640) : idx_main_v8 (idx_main_v10 (ix4 b t u h)) = ix3 b t h :=
  funext fun a => match a with | ⟨0, _⟩ => rfl | ⟨1, _⟩ => rfl | ⟨2, _⟩ => rfl
theorem pidx (b : Fin 4) (t : Fin 256) (u : Fin 64) (h : Fin 640) : idx_main_v9 (idx_main_v11 (ix4 b t u h)) = ix3 b u h :=
  funext fun a => match a with | ⟨0, _⟩ => rfl | ⟨1, _⟩ => rfl | ⟨2, _⟩ => rfl
theorem lidx14 (b : Fin 4) (t : Fin 256) (u : Fin 64) (v : Fin 1024) (k : Fin 640) : lidx_main_v14 (ix4 b t u v) k = ix4 b t u k :=
  funext fun a => match a with | ⟨0, _⟩ => rfl | ⟨1, _⟩ => rfl | ⟨2, _⟩ => rfl | ⟨3, _⟩ => rfl
theorem ridx14 (b : Fin 4) (t : Fin 256) (u : Fin 64) (v : Fin 1024) (k : Fin 640) : ridx_main_v14 (ix4 b t u v) k = ix2 v k :=
  funext fun a => match a with | ⟨0, _⟩ => rfl | ⟨1, _⟩ => rfl
theorem bidx16 (b : Fin 4) (t : Fin 256) (u : Fin 64) (v : Fin 1024) : idx_main_v15 (idx_main_v16 (ix4 b t u v)) = ix1 v :=
  funext fun a => match a with | ⟨0, _⟩ => rfl
theorem lidx18 (b : Fin 4) (t : Fin 256) (u : Fin 64) (d : Fin 5) (k : Fin 640) : lidx_main_v18 (ix4 b t u d) k = ix4 b t u k :=
  funext fun a => match a with | ⟨0, _⟩ => rfl | ⟨1, _⟩ => rfl | ⟨2, _⟩ => rfl | ⟨3, _⟩ => rfl
theorem ridx18 (b : Fin 4) (t : Fin 256) (u : Fin 64) (d : Fin 5) (k : Fin 640) : ridx_main_v18 (ix4 b t u d) k = ix2 d k :=
  funext fun a => match a with | ⟨0, _⟩ => rfl | ⟨1, _⟩ => rfl
theorem bidx20 (b : Fin 4) (t : Fin 256) (u : Fin 64) (d : Fin 5) : idx_main_v19 (idx_main_v20 (ix4 b t u d)) = ix1 d :=
  funext fun a => match a with | ⟨0, _⟩ => rfl

/-! ## The stages -/

/-- The encoder projection with its bias. -/
theorem encStage (b : Fin 4) (t : Fin 256) (h : Fin 640) :
    val_main_v3 (F := Ideal) x0 x2 x3 (ix3 b t h) = encProj (refArgs x0 x1 x2 x3 x4 x5 x6 x7 x8 x9) b t h := by
  rw [val_main_v3_apply, val_main_v0_apply, val_main_v2_apply, val_main_v1_apply, bidx2]
  simp only [lidx0, ridx0]
  rfl

/-- The predictor projection with its bias. -/
theorem predStage (b : Fin 4) (u : Fin 64) (h : Fin 640) :
    val_main_v7 (F := Ideal) x1 x4 x5 (ix3 b u h) = predProj (refArgs x0 x1 x2 x3 x4 x5 x6 x7 x8 x9) b u h := by
  rw [val_main_v7_apply, val_main_v4_apply, val_main_v6_apply, val_main_v5_apply, bidx6]
  simp only [lidx4, ridx4]
  rfl

/-- The joint activation. -/
theorem jointStage (b : Fin 4) (t : Fin 256) (u : Fin 64) (h : Fin 640) :
    val_main_v13 (F := Ideal) x0 x1 x2 x3 x4 x5 (ix4 b t u h) = joint (refArgs x0 x1 x2 x3 x4 x5 x6 x7 x8 x9) b t u h := by
  rw [val_main_v13_apply, val_main_v12_apply, val_main_v10_apply, val_main_v8_apply, val_main_v11_apply, val_main_v9_apply,
    eidx, pidx, encStage x0 x1 x2 x3 x4 x5 x6 x7 x8 x9, predStage x0 x1 x2 x3 x4 x5 x6 x7 x8 x9]
  rfl

/-- The reference's first result is the token head. -/
theorem logits_eq :
    val_main_v17 (F := Ideal) x0 x1 x2 x3 x4 x5 x6 x7 = logits (refArgs x0 x1 x2 x3 x4 x5 x6 x7 x8 x9) := by
  funext i
  obtain ⟨b, t, u, v, rfl⟩ : ∃ (b : Fin 4) (t : Fin 256) (u : Fin 64) (v : Fin 1024), i = ix4 b t u v :=
    ⟨i 0, i 1, i 2, i 3, eq_ix4 i⟩
  rw [val_main_v17_apply, val_main_v14_apply, val_main_v16_apply, val_main_v15_apply, bidx16]
  simp only [lidx14, ridx14, jointStage x0 x1 x2 x3 x4 x5 x6 x7 x8 x9]
  rfl

/-- The reference's second result is the duration head. -/
theorem durations_eq :
    val_main_v21 (F := Ideal) x0 x1 x2 x3 x4 x5 x8 x9 = durations (refArgs x0 x1 x2 x3 x4 x5 x6 x7 x8 x9) := by
  funext i
  obtain ⟨b, t, u, d, rfl⟩ : ∃ (b : Fin 4) (t : Fin 256) (u : Fin 64) (d : Fin 5), i = ix4 b t u d :=
    ⟨i 0, i 1, i 2, i 3, eq_ix4 i⟩
  rw [val_main_v21_apply, val_main_v18_apply, val_main_v20_apply, val_main_v19_apply, bidx20]
  simp only [lidx18, ridx18, jointStage x0 x1 x2 x3 x4 x5 x6 x7 x8 x9]
  rfl

end Cert.ReferenceIdeal.RefValue

end
-- ==== Proof.lean ====
/-
  The joint network kernel against its reference: the certificate's five claims.

  Both programs compute, from the same ten arrays, the token head and the duration head of
  tanh (encoder projection + predictor projection): the kernel tile by tile over a 4 x 16 grid, caching the predictor
  projection of a batch entry in a buffer it carries across that entry's 16 time tiles, with the weights transposed
  beforehand; the reference with four whole contractions and broadcasts. Over the extended reals every entry of either
  result is the SAME nest of sums of the same terms, so the two runs end with equal results whatever the inputs: the
  precondition is never opened.

  The three frames are the generated ones (the reference's is its run with the results dropped); the idealization
  rewrote nothing, so it is preserved trivially; the value claim sets the kernel's run (both result arrays at the
  specification's two heads of the launch arguments) beside the reference's (its two result terms, read stage by
  stage, are the same two heads).
-/
import proofs.«146714_j50723563766128_1_alg».proof.Defs
import proofs.«146714_j50723563766128_1_alg».proof.Proof.Gen.Kernel
import proofs.«146714_j50723563766128_1_alg».proof.Proof.Gen.Kernel.Frame
import proofs.«146714_j50723563766128_1_alg».proof.Proof.Gen.KernelIdeal
import proofs.«146714_j50723563766128_1_alg».proof.Proof.Gen.KernelIdeal.Frame
import proofs.«146714_j50723563766128_1_alg».proof.Proof.Gen.KernelIdeal.Value
import proofs.«146714_j50723563766128_1_alg».proof.Proof.Gen.ReferenceIdeal
import proofs.«146714_j50723563766128_1_alg».proof.Proof.Gen.ReferenceIdeal.Run
import proofs.«146714_j50723563766128_1_alg».proof.Proof.Gen.ReferenceIdeal.Read
import proofs.«146714_j50723563766128_1_alg».proof.Proof.Gen.Pre_finite_inputs
import proofs.«146714_j50723563766128_1_alg».proof.Proof.KernelValue
import proofs.«146714_j50723563766128_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The kernel's two result arrays end at the two heads of its launch arguments; the reference's two results are
    the same two heads of arguments that agree. -/
theorem algebraic : Cert.algebraic_KernelIdeal_ReferenceIdeal := by
  intro m ρ m' ρ' _ hagree
  refine ⟨fun c => Cert.JointSpec.logits (Cert.KernelIdeal.JointValue.kArgs m c),
    fun c => Cert.JointSpec.durations (Cert.KernelIdeal.JointValue.kArgs m c),
    Cert.KernelIdeal.JointValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    refine (Cert.ReferenceIdeal.Read.val_main_v17_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans ?_
    rw [Cert.ReferenceIdeal.RefValue.logits_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)),
      a0, a1, a2, a3, a4, a5, a6, a7, a8, a9]
  · obtain ⟨a0, a1, a2, a3, a4, a5, a6, a7, a8, a9⟩ := hagree c
    refine (Cert.ReferenceIdeal.Read.val_main_v21_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_
    rw [Cert.ReferenceIdeal.RefValue.durations_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)),
      a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
